-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x2048 .f32) (main_arg8 : FVec F S2048 .f32) (main_arg9 : FVec F S2048 .f32) (main_arg10 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048 .f32) (main_arg9 : FVec F S2048 .f32) (main_arg10 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S2048x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048 .f32) (main_arg9 : FVec F S2048 .f32) (main_arg10 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048x2048 : Shape := ⟨3, ![1, 2048, 2048]⟩
abbrev S6x2048x2048 : Shape := ⟨3, ![6, 2048, 2048]⟩
abbrev S1x2048 : Shape := ⟨2, ![1, 2048]⟩
abbrev S3x2048 : Shape := ⟨2, ![3, 2048]⟩
abbrev S3x1x2048 : Shape := ⟨3, ![3, 1, 2048]⟩
abbrev S1x1x2048 : Shape := ⟨3, ![1, 1, 2048]⟩
abbrev S256x2048 : Shape := ⟨2, ![256, 2048]⟩

abbrev nBuf : Space → Nat
  | .hbm => 25
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S1x2048x2048, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S6x2048x2048, .f32⟩
  | .hbm, ⟨18, _⟩ => ⟨S6x2048x2048, .bf16⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S3x2048, .f32⟩
  | .hbm, ⟨23, _⟩ => ⟨S3x1x2048, .f32⟩
  | .hbm, ⟨24, _⟩ => ⟨S8192x2048, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x1x2048, .f32⟩
  | .local _ .vmem, ⟨3, _⟩ => ⟨S1x1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 6], ![false, false]⟩

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S2048x2048_S1x2048x2048_1_2 : S2048x2048.BroadcastsInDim S1x2048x2048 (![1, 2] : Fin 2 → Fin S1x2048x2048.rank)
  concatenates_S1x2048x2048_S1x2048x2048_S1x2048x2048_S1x2048x2048_S1x2048x2048_S1x2048x2048_S6x2048x2048_d0 : Shape.Concatenates [S1x2048x2048, S1x2048x2048, S1x2048x2048, S1x2048x2048, S1x2048x2048, S1x2048x2048] S6x2048x2048 0
  bitsLt_bf16_f32 : FTy.bits .bf16 < FTy.bits .f32
  bcast_S2048_S1x2048_1 : S2048.BroadcastsInDim S1x2048 (![1] : Fin 1 → Fin S1x2048.rank)
  concatenates_S1x2048_S1x2048_S1x2048_S3x2048_d0 : Shape.Concatenates [S1x2048, S1x2048, S1x2048] S3x2048 0
  shapeCasts_S3x2048_S3x1x2048 : S3x2048.ShapeCasts S3x1x2048
  inb_S256x2048_S256x2048_0_0 : ∀ a, (![0, 0] : Fin 2 → Nat) a + S256x2048.size a ≤ S256x2048.size a
  h_S256x2048 : 0 < S256x2048.numel
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S256x2048_S256x2048 : S256x2048.ShapeCasts S256x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S256x2048 : S1x2048.Broadcasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S6x2048x2048.size a
  hwx0_0 : ∀ i : grid0.Coords, EltTy.bits .bf16 = 32 ∨ (Rect.block (s := S6x2048x2048) S1x2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S3x1x2048.size a
  hwx0_1 : ∀ i : grid0.Coords, EltTy.bits .f32 = 32 ∨ (Rect.block (s := S3x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x2048.size a
  hwx0_3 : ∀ i : grid0.Coords, EltTy.bits .f32 = 32 ∨ (Rect.block (s := S8192x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v7) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond6 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x6144 : Shape := ⟨2, ![2048, 6144]⟩
abbrev S8192x6144 : Shape := ⟨2, ![8192, 6144]⟩
abbrev S2048x4096 : Shape := ⟨2, ![2048, 4096]⟩
abbrev S8192x4096 : Shape := ⟨2, ![8192, 4096]⟩
abbrev S1x2048 : Shape := ⟨2, ![1, 2048]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x6144, .f32⟩
  | .hbm, ⟨12, _⟩ => ⟨S8192x6144, .f32⟩
  | .hbm, ⟨13, _⟩ => ⟨S2048x4096, .f32⟩
  | .hbm, ⟨14, _⟩ => ⟨S8192x4096, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  concatenates_S2048x2048_S2048x2048_S2048x2048_S2048x6144_d1 : Shape.Concatenates [S2048x2048, S2048x2048, S2048x2048] S2048x6144 1
  concatenates_S2048x2048_S2048x2048_S2048x4096_d1 : Shape.Concatenates [S2048x2048, S2048x2048] S2048x4096 1
  slices_S8192x6144_S8192x2048_0_0 : S8192x6144.Slices ![0, 0] S8192x2048
  slices_S8192x4096_S8192x2048_0_0 : S8192x4096.Slices ![0, 0] S8192x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  slices_S8192x6144_S8192x2048_0_2048 : S8192x6144.Slices ![0, 2048] S8192x2048
  slices_S8192x4096_S8192x2048_0_2048 : S8192x4096.Slices ![0, 2048] S8192x2048
  slices_S8192x6144_S8192x2048_0_4096 : S8192x6144.Slices ![0, 4096] S8192x2048
  dot_S8192x2048_S2048x6144_S8192x6144_1_0_0_1_n_n_wf : DotDims.WF S8192x2048 S2048x6144 S8192x6144 [1] [0] [0] [1] [] []
  dot_S8192x2048_S2048x4096_S8192x4096_1_0_0_1_n_n_wf : DotDims.WF S8192x2048 S2048x4096 S8192x4096 [1] [0] [0] [1] [] []
  dot_S8192x2048_S2048x2048_S8192x2048_1_0_0_1_n_n_wf : DotDims.WF S8192x2048 S2048x2048 S8192x2048 [1] [0] [0] [1] [] []

variable [Facts₀]

def dot_S8192x2048_S2048x6144_S8192x6144_1_0_0_1_n_n : DotDims S8192x2048 S2048x6144 S8192x6144 where
  lhsContracting := [1]
  rhsContracting := [0]
  lhsNonContracting := [0]
  rhsNonContracting := [1]
  lhsBatch := []
  rhsBatch := []
  wf := dot_S8192x2048_S2048x6144_S8192x6144_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.K.Kit.lean ====
/-
  The fused GRU kernel's launch, read off the printed program: what the arrays hold when the region is entered (the
  stacked weights and biases the host lines build), each window's block at a grid point, the six branch conditions of
  the body in closed form over the grid (the point's position inside its batch tile), where the output window is
  idle, and the three accumulators the body keeps between points as whole buffers.
-/
import proofs.«173219_j59227599012282_2_alg».proof.Proof.Gen.Kernel.Launch
import proofs.«173219_j59227599012282_2_alg».proof.Proof.Gen.Kernel.Skeleton
import proofs.«173219_j59227599012282_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the thirteen host lines that stack the six weight matrices
    (cast to the narrow format) and the three bias vectors. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor

/-- @main is the host lines, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (an unfetched window's
    block index has not moved), for any proof data whose arrays are the region-entry ones and whose body leaves
    the inputs in place. -/
theorem before_w0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_w2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_w3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's six branches: which step of its batch tile a point is -/

abbrev cond0 (i : grid0.Coords) : Prop := (Scalar.cmpi .ne (Scalar.extui (Scalar.cmpi .eq (BitVec.ofNat 32 (i 1).val) 0#32)) 0#32) = 1#1
abbrev cond1 (i : grid0.Coords) : Prop := (Scalar.cmpi .ne (Scalar.extui (Scalar.cmpi .eq (BitVec.ofNat 32 (i 1).val) 1#32)) 0#32) = 1#1
abbrev cond2 (i : grid0.Coords) : Prop := (Scalar.cmpi .ne (Scalar.extui (Scalar.cmpi .eq (BitVec.ofNat 32 (i 1).val) 2#32)) 0#32) = 1#1
abbrev cond3 (i : grid0.Coords) : Prop := (Scalar.cmpi .ne (Scalar.extui (Scalar.cmpi .eq (BitVec.ofNat 32 (i 1).val) 3#32)) 0#32) = 1#1
abbrev cond4 (i : grid0.Coords) : Prop := (Scalar.cmpi .ne (Scalar.extui (Scalar.cmpi .eq (BitVec.ofNat 32 (i 1).val) 4#32)) 0#32) = 1#1
abbrev cond5 (i : grid0.Coords) : Prop := k0_cond6 i = 1#1

/-- Branch `j` is taken exactly at the points whose position in the batch tile is `j`: decided over the 192 points. -/
theorem hcond0 : ∀ t : Fin cfg0.N, cond0 (grid0.coords t) ↔ t.val % 6 = 0 :=
  (by decide +kernel : ∀ t : Fin grid0.N, cond0 (grid0.coords t) ↔ t.val % 6 = 0)
theorem hcond1 : ∀ t : Fin cfg0.N, cond1 (grid0.coords t) ↔ t.val % 6 = 1 :=
  (by decide +kernel : ∀ t : Fin grid0.N, cond1 (grid0.coords t) ↔ t.val % 6 = 1)
theorem hcond2 : ∀ t : Fin cfg0.N, cond2 (grid0.coords t) ↔ t.val % 6 = 2 :=
  (by decide +kernel : ∀ t : Fin grid0.N, cond2 (grid0.coords t) ↔ t.val % 6 = 2)
theorem hcond3 : ∀ t : Fin cfg0.N, cond3 (grid0.coords t) ↔ t.val % 6 = 3 :=
  (by decide +kernel : ∀ t : Fin grid0.N, cond3 (grid0.coords t) ↔ t.val % 6 = 3)
theorem hcond4 : ∀ t : Fin cfg0.N, cond4 (grid0.coords t) ↔ t.val % 6 = 4 :=
  (by decide +kernel : ∀ t : Fin grid0.N, cond4 (grid0.coords t) ↔ t.val % 6 = 4)
theorem hcond5 : ∀ t : Fin cfg0.N, cond5 (grid0.coords t) ↔ t.val % 6 = 5 :=
  (by decide +kernel : ∀ t : Fin grid0.N, cond5 (grid0.coords t) ↔ t.val % 6 = 5)

/-! ## Where the windows are idle -/

theorem live_w0 : ∀ t : Fin cfg0.N, cfg0.idle 0 (grid0.coords t) = false := by decide +kernel
theorem live_w1 : ∀ t : Fin cfg0.N, cfg0.idle 1 (grid0.coords t) = false := by decide +kernel
theorem live_w2 : ∀ t : Fin cfg0.N, cfg0.idle 2 (grid0.coords t) = false := by decide +kernel
theorem live_w3 : ∀ t : Fin cfg0.N, cfg0.idle 3 (grid0.coords t) = false := by decide +kernel
/-- The result window is stored only at a tile's last step; elsewhere it is idle and not written back. -/
theorem idle_w4 : ∀ t : Fin cfg0.N, ¬cond5 (grid0.coords t) → cfg0.idle 4 (grid0.coords t) = true := by decide +kernel
theorem noflush_w4 : ∀ t : Fin cfg0.N, ¬cond5 (grid0.coords t) → (cfg0.win 4).flush t = false := by decide +kernel
theorem live_w4 : ∀ t : Fin cfg0.N, cond5 (grid0.coords t) → cfg0.idle 4 (grid0.coords t) = false := by decide +kernel

/-! ## The memrefs the body is called with -/

abbrev ms0 (t : Fin cfg0.N) : Memref sig .tc .vmem S1x2048x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2048 .f32 := win0_4.stage (cfg0.slots t 4)
abbrev hs4 (t : Fin cfg0.N) : (ms4 t).IsWhole := hstage0_4 ((cfg0.slots t 4).cast nbuf0_4)
/-- The three accumulators: the update gate's, the reset gate's, the candidate's input projection. -/
abbrev scZ : Memref sig .tc .vmem S256x2048 .f32 := Memref.whole cc0_scratch0
abbrev scR : Memref sig .tc .vmem S256x2048 .f32 := Memref.whole cc0_scratch1
abbrev scW : Memref sig .tc .vmem S256x2048 .f32 := Memref.whole cc0_scratch2

/-- The region's own invariant with the accumulators as memrefs owned at some contents. -/
theorem PhiA_eq (c : Dev nD) :
    (Pipeline.ΦA spec0 c : sProp 𝕄)
      = iprop(iprop((∃ d, owns (c : Thread nD τ) scZ fullShare d) ∗ (∃ d, owns (c : Thread nD τ) scR fullShare d) ∗ (∃ d, owns (c : Thread nD τ) scW fullShare d)) ∗ (∃ r, prngReg c r)) := by
  unfold Pipeline.ΦA; rw [scopedRest0_eq]; simp only [scZ, scR, scW, owns_whole]; try rfl

end Cert.Kernel.Hand

end
-- ==== Proof.LibWhole.lean ====
/-
  Whole-buffer accesses through a view, over an abstract shape.

  A load through the rectangle at zero offsets of the shape's own sizes reads the view's contents; one unmasked
  store through that rectangle leaves its payload, whatever the buffer held; and a load through it of what one
  such store left reads the payload. Each is stated for any shape `S`, so that a use at a shape of large
  literal extents unifies the rectangle syntactically and never unfolds the sizes.
-/
import Idealize.ShloMosaic.Lib.Pipeline.FrameBody
import Idealize.ShloMosaic.Lib.Pipeline.Value

noncomputable section

namespace Cert.LibWhole

open Idealize.ShloMosaic

variable {Val : EltTy → Type} {sig : RefSig} {κ : Kind} {sp : Space} {S : Shape} {e : EltTy}

/-- A load of the whole shape at zero offsets reads what the view reads. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

/-- One unmasked store of the whole shape at zero offsets leaves its payload. -/
theorem read_writes_whole [∀ e, Nonempty (Val e)] (v : View sig κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩)]
  exact View.canon_unit_zero h inb w

end Cert.LibWhole

end
-- ==== Proof.K.Run0.lean ====
/-
  Step 0 of a batch tile, run on any whole staging buffers and accumulators: only the branch of this step is
  taken; every buffer is handed back as it was found except the one the step stores into, which ends at the step's
  value of the loaded blocks.
-/
import proofs.«173219_j59227599012282_2_alg».proof.Proof.K.Kit
import proofs.«173219_j59227599012282_2_alg».proof.Proof.LibWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_0 : (![0, 0] : Fin 2 → ℕ) = fun _ => 0 := by funext a; fin_cases a <;> rfl
theorem zero3_0 : (![0, 0, 0] : Fin 3 → ℕ) = fun _ => 0 := by funext a; fin_cases a <;> rfl

set_option maxHeartbeats 1000000 in
theorem run_g0 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : cond0 i) (hc1 : ¬cond1 i) (hc2 : ¬cond2 i) (hc3 : ¬cond3 i) (hc4 : ¬cond4 i) (hc5 : ¬cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare (k0_pay1 x w) ∗ owns (c : Thread nD τ) a8 fullShare r ∗ owns (c : Thread nD τ) a9 fullShare u) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_0
  have zero3 := zero3_0
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    have e2 : ∀ f, View.readAt (Elt F) a2.view (Rect.unit ![0, 0, 0] S1x2048x2048.size inb_S1x2048x2048_S1x2048x2048_0_0_0).toLoadRect f = a2.view.read (Elt F) f :=
      fun f => Cert.LibWhole.readAt_whole a2.view f zero3 _
    have e3 : ∀ f, View.readAt (Elt F) a3.view (Rect.unit ![0, 0, 0] S1x1x2048.size inb_S1x1x2048_S1x1x2048_0_0_0).toLoadRect f = a3.view.read (Elt F) f :=
      fun f => Cert.LibWhole.readAt_whole a3.view f zero3 _
    have e4 : ∀ (a : Memref sig .tc .vmem S256x2048 .f32) f, View.readAt (Elt F) a.view (Rect.unit ![0, 0] S256x2048.size inb_S256x2048_S256x2048_0_0).toLoadRect f = a.view.read (Elt F) f :=
      fun a f => Cert.LibWhole.readAt_whole a.view f zero2 _
    exact (Cert.LibWhole.read_writes_whole a7.view _ zero2 _ _).trans (by
      simp only [e2, e3, e4, hf2, hf3, hf4, hf5, hf6, hf7, hf8, hf9])
  isplitl [H8]
  · iexists _; isplitr; · ipureintro; exact hf8
    iexact H8
  iexists _; isplitr; · ipureintro; exact hf9
  iexact H9

end Cert.Kernel.Hand

end
-- ==== Proof.K.Run1.lean ====
/-
  Step 1 of a batch tile, run on any whole staging buffers and accumulators: only the branch of this step is
  taken; every buffer is handed back as it was found except the one the step stores into, which ends at the step's
  value of the loaded blocks.
-/
import proofs.«173219_j59227599012282_2_alg».proof.Proof.K.Kit
import proofs.«173219_j59227599012282_2_alg».proof.Proof.LibWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_1 : (![0, 0] : Fin 2 → ℕ) = fun _ => 0 := by funext a; fin_cases a <;> rfl
theorem zero3_1 : (![0, 0, 0] : Fin 3 → ℕ) = fun _ => 0 := by funext a; fin_cases a <;> rfl

set_option maxHeartbeats 1000000 in
theorem run_g1 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : ¬cond0 i) (hc1 : cond1 i) (hc2 : ¬cond2 i) (hc3 : ¬cond3 i) (hc4 : ¬cond4 i) (hc5 : ¬cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare (k0_pay2 h w bi z) ∗ owns (c : Thread nD τ) a8 fullShare r ∗ owns (c : Thread nD τ) a9 fullShare u) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_1
  have zero3 := zero3_1
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    have e2 : ∀ f, View.readAt (Elt F) a2.view (Rect.unit ![0, 0, 0] S1x2048x2048.size inb_S1x2048x2048_S1x2048x2048_0_0_0).toLoadRect f = a2.view.read (Elt F) f :=
      fun f => Cert.LibWhole.readAt_whole a2.view f zero3 _
    have e3 : ∀ f, View.readAt (Elt F) a3.view (Rect.unit ![0, 0, 0] S1x1x2048.size inb_S1x1x2048_S1x1x2048_0_0_0).toLoadRect f = a3.view.read (Elt F) f :=
      fun f => Cert.LibWhole.readAt_whole a3.view f zero3 _
    have e4 : ∀ (a : Memref sig .tc .vmem S256x2048 .f32) f, View.readAt (Elt F) a.view (Rect.unit ![0, 0] S256x2048.size inb_S256x2048_S256x2048_0_0).toLoadRect f = a.view.read (Elt F) f :=
      fun a f => Cert.LibWhole.readAt_whole a.view f zero2 _
    exact (Cert.LibWhole.read_writes_whole a7.view _ zero2 _ _).trans (by
      simp only [e2, e3, e4, hf2, hf3, hf4, hf5, hf6, hf7, hf8, hf9])
  isplitl [H8]
  · iexists _; isplitr; · ipureintro; exact hf8
    iexact H8
  iexists _; isplitr; · ipureintro; exact hf9
  iexact H9

end Cert.Kernel.Hand

end
-- ==== Proof.K.Run2.lean ====
/-
  Step 2 of a batch tile, run on any whole staging buffers and accumulators: only the branch of this step is
  taken; every buffer is handed back as it was found except the one the step stores into, which ends at the step's
  value of the loaded blocks.
-/
import proofs.«173219_j59227599012282_2_alg».proof.Proof.K.Kit
import proofs.«173219_j59227599012282_2_alg».proof.Proof.LibWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_2 : (![0, 0] : Fin 2 → ℕ) = fun _ => 0 := by funext a; fin_cases a <;> rfl
theorem zero3_2 : (![0, 0, 0] : Fin 3 → ℕ) = fun _ => 0 := by funext a; fin_cases a <;> rfl

set_option maxHeartbeats 1000000 in
theorem run_g2 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : ¬cond0 i) (hc1 : ¬cond1 i) (hc2 : cond2 i) (hc3 : ¬cond3 i) (hc4 : ¬cond4 i) (hc5 : ¬cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare (k0_pay3 x w) ∗ owns (c : Thread nD τ) a9 fullShare u) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_2
  have zero3 := zero3_2
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    have e2 : ∀ f, View.readAt (Elt F) a2.view (Rect.unit ![0, 0, 0] S1x2048x2048.size inb_S1x2048x2048_S1x2048x2048_0_0_0).toLoadRect f = a2.view.read (Elt F) f :=
      fun f => Cert.LibWhole.readAt_whole a2.view f zero3 _
    have e3 : ∀ f, View.readAt (Elt F) a3.view (Rect.unit ![0, 0, 0] S1x1x2048.size inb_S1x1x2048_S1x1x2048_0_0_0).toLoadRect f = a3.view.read (Elt F) f :=
      fun f => Cert.LibWhole.readAt_whole a3.view f zero3 _
    have e4 : ∀ (a : Memref sig .tc .vmem S256x2048 .f32) f, View.readAt (Elt F) a.view (Rect.unit ![0, 0] S256x2048.size inb_S256x2048_S256x2048_0_0).toLoadRect f = a.view.read (Elt F) f :=
      fun a f => Cert.LibWhole.readAt_whole a.view f zero2 _
    exact (Cert.LibWhole.read_writes_whole a8.view _ zero2 _ _).trans (by
      simp only [e2, e3, e4, hf2, hf3, hf4, hf5, hf6, hf7, hf8, hf9])
  iexists _; isplitr; · ipureintro; exact hf9
  iexact H9

end Cert.Kernel.Hand

end
-- ==== Proof.K.Run3.lean ====
/-
  Step 3 of a batch tile, run on any whole staging buffers and accumulators: only the branch of this step is
  taken; every buffer is handed back as it was found except the one the step stores into, which ends at the step's
  value of the loaded blocks.
-/
import proofs.«173219_j59227599012282_2_alg».proof.Proof.K.Kit
import proofs.«173219_j59227599012282_2_alg».proof.Proof.LibWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_3 : (![0, 0] : Fin 2 → ℕ) = fun _ => 0 := by funext a; fin_cases a <;> rfl
theorem zero3_3 : (![0, 0, 0] : Fin 3 → ℕ) = fun _ => 0 := by funext a; fin_cases a <;> rfl

set_option maxHeartbeats 1000000 in
theorem run_g3 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : ¬cond0 i) (hc1 : ¬cond1 i) (hc2 : ¬cond2 i) (hc3 : cond3 i) (hc4 : ¬cond4 i) (hc5 : ¬cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare (k0_pay4 h w bi r) ∗ owns (c : Thread nD τ) a9 fullShare u) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_3
  have zero3 := zero3_3
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    have e2 : ∀ f, View.readAt (Elt F) a2.view (Rect.unit ![0, 0, 0] S1x2048x2048.size inb_S1x2048x2048_S1x2048x2048_0_0_0).toLoadRect f = a2.view.read (Elt F) f :=
      fun f => Cert.LibWhole.readAt_whole a2.view f zero3 _
    have e3 : ∀ f, View.readAt (Elt F) a3.view (Rect.unit ![0, 0, 0] S1x1x2048.size inb_S1x1x2048_S1x1x2048_0_0_0).toLoadRect f = a3.view.read (Elt F) f :=
      fun f => Cert.LibWhole.readAt_whole a3.view f zero3 _
    have e4 : ∀ (a : Memref sig .tc .vmem S256x2048 .f32) f, View.readAt (Elt F) a.view (Rect.unit ![0, 0] S256x2048.size inb_S256x2048_S256x2048_0_0).toLoadRect f = a.view.read (Elt F) f :=
      fun a f => Cert.LibWhole.readAt_whole a.view f zero2 _
    exact (Cert.LibWhole.read_writes_whole a8.view _ zero2 _ _).trans (by
      simp only [e2, e3, e4, hf2, hf3, hf4, hf5, hf6, hf7, hf8, hf9])
  iexists _; isplitr; · ipureintro; exact hf9
  iexact H9

end Cert.Kernel.Hand

end
-- ==== Proof.K.Run4.lean ====
/-
  Step 4 of a batch tile, run on any whole staging buffers and accumulators: only the branch of this step is
  taken; every buffer is handed back as it was found except the one the step stores into, which ends at the step's
  value of the loaded blocks.
-/
import proofs.«173219_j59227599012282_2_alg».proof.Proof.K.Kit
import proofs.«173219_j59227599012282_2_alg».proof.Proof.LibWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_4 : (![0, 0] : Fin 2 → ℕ) = fun _ => 0 := by funext a; fin_cases a <;> rfl
theorem zero3_4 : (![0, 0, 0] : Fin 3 → ℕ) = fun _ => 0 := by funext a; fin_cases a <;> rfl

set_option maxHeartbeats 1000000 in
theorem run_g4 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : ¬cond0 i) (hc1 : ¬cond1 i) (hc2 : ¬cond2 i) (hc3 : ¬cond3 i) (hc4 : cond4 i) (hc5 : ¬cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare (k0_pay5 x w)) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_4
  have zero3 := zero3_4
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  iexists _; isplitr
  swap; · iexact H9
  ipureintro
  have e2 : ∀ f, View.readAt (Elt F) a2.view (Rect.unit ![0, 0, 0] S1x2048x2048.size inb_S1x2048x2048_S1x2048x2048_0_0_0).toLoadRect f = a2.view.read (Elt F) f :=
    fun f => Cert.LibWhole.readAt_whole a2.view f zero3 _
  have e3 : ∀ f, View.readAt (Elt F) a3.view (Rect.unit ![0, 0, 0] S1x1x2048.size inb_S1x1x2048_S1x1x2048_0_0_0).toLoadRect f = a3.view.read (Elt F) f :=
    fun f => Cert.LibWhole.readAt_whole a3.view f zero3 _
  have e4 : ∀ (a : Memref sig .tc .vmem S256x2048 .f32) f, View.readAt (Elt F) a.view (Rect.unit ![0, 0] S256x2048.size inb_S256x2048_S256x2048_0_0).toLoadRect f = a.view.read (Elt F) f :=
    fun a f => Cert.LibWhole.readAt_whole a.view f zero2 _
  exact (Cert.LibWhole.read_writes_whole a9.view _ zero2 _ _).trans (by
    simp only [e2, e3, e4, hf2, hf3, hf4, hf5, hf6, hf7, hf8, hf9])

end Cert.Kernel.Hand

end
-- ==== Proof.K.Run5.lean ====
/-
  Step 5 of a batch tile, run on any whole staging buffers and accumulators: only the branch of this step is
  taken; every buffer is handed back as it was found except the one the step stores into, which ends at the step's
  value of the loaded blocks.
-/
import proofs.«173219_j59227599012282_2_alg».proof.Proof.K.Kit
import proofs.«173219_j59227599012282_2_alg».proof.Proof.LibWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_5 : (![0, 0] : Fin 2 → ℕ) = fun _ => 0 := by funext a; fin_cases a <;> rfl
theorem zero3_5 : (![0, 0, 0] : Fin 3 → ℕ) = fun _ => 0 := by funext a; fin_cases a <;> rfl

set_option maxHeartbeats 1000000 in
theorem run_g5 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : ¬cond0 i) (hc1 : ¬cond1 i) (hc2 : ¬cond2 i) (hc3 : ¬cond3 i) (hc4 : ¬cond4 i) (hc5 : cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare (k0_pay6 h r w bi u z) ∗ owns (c : Thread nD τ) a7 fullShare z ∗ owns (c : Thread nD τ) a8 fullShare r ∗ owns (c : Thread nD τ) a9 fullShare u) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_5
  have zero3 := zero3_5
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    have e2 : ∀ f, View.readAt (Elt F) a2.view (Rect.unit ![0, 0, 0] S1x2048x2048.size inb_S1x2048x2048_S1x2048x2048_0_0_0).toLoadRect f = a2.view.read (Elt F) f :=
      fun f => Cert.LibWhole.readAt_whole a2.view f zero3 _
    have e3 : ∀ f, View.readAt (Elt F) a3.view (Rect.unit ![0, 0, 0] S1x1x2048.size inb_S1x1x2048_S1x1x2048_0_0_0).toLoadRect f = a3.view.read (Elt F) f :=
      fun f => Cert.LibWhole.readAt_whole a3.view f zero3 _
    have e4 : ∀ (a : Memref sig .tc .vmem S256x2048 .f32) f, View.readAt (Elt F) a.view (Rect.unit ![0, 0] S256x2048.size inb_S256x2048_S256x2048_0_0).toLoadRect f = a.view.read (Elt F) f :=
      fun a f => Cert.LibWhole.readAt_whole a.view f zero2 _
    exact (Cert.LibWhole.read_writes_whole a6.view _ zero2 _ _).trans (by
      simp only [e2, e3, e4, hf2, hf3, hf4, hf5, hf6, hf7, hf8, hf9])
  isplitl [H7]
  · iexists _; isplitr; · ipureintro; exact hf7
    iexact H7
  isplitl [H8]
  · iexists _; isplitr; · ipureintro; exact hf8
    iexact H8
  iexists _; isplitr; · ipureintro; exact hf9
  iexact H9

end Cert.Kernel.Hand

end
-- ==== Proof.K.Data.lean ====
/-
  What the fused GRU kernel holds point by point.  The 192 grid points run through 32 batch tiles of six steps.
  Within a tile that starts at point `s`: after step 0 the update accumulator holds the input projection x·W_z of the
  tile's rows; after step 1 the update gate z; after step 2 the reset accumulator holds x·W_r; after step 3 the reset
  gate r; after step 4 the third accumulator holds x·W_h; step 5 stores the new state of the tile's rows into the
  result window, which is written back there and only there.  Each is the body's own value (its named payload) of
  the blocks the pipeline staged at that step.  The invariant before point `n` names exactly the accumulators a
  later step of the same tile still reads; the others, and all three at a tile's start, hold anything.
-/
import proofs.«173219_j59227599012282_2_alg».proof.Proof.K.Run0
import proofs.«173219_j59227599012282_2_alg».proof.Proof.K.Run1
import proofs.«173219_j59227599012282_2_alg».proof.Proof.K.Run2
import proofs.«173219_j59227599012282_2_alg».proof.Proof.K.Run3
import proofs.«173219_j59227599012282_2_alg».proof.Proof.K.Run4
import proofs.«173219_j59227599012282_2_alg».proof.Proof.K.Run5

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 192 points. -/
theorem N192 : cfg0.N = 192 := N_0

/-- Point number `n` (wrapped into the grid, so that the terms below are total). -/
def pt (n : ℕ) : Fin cfg0.N := ⟨n % 192, lt_of_lt_of_eq (Nat.mod_lt n (by decide : 192 > 0)) N192.symm⟩

theorem pt_eq (n : ℕ) (t : Fin cfg0.N) (h : n = t.val) : pt n = t :=
  Fin.ext (by show n % 192 = t.val; have := lt_of_lt_of_eq t.isLt N192; omega)

/-! ## The accumulators through a tile that starts at point `s` -/

/-- x·W_z of the tile's rows (step 0). -/
def Z0 (c : Dev nD) (s : ℕ) : Vec F S256x2048 .f32 := k0_pay1 (iblk m c 2 (pt s)) (iblk m c 0 (pt s))
/-- The update gate (step 1). -/
def Zf (c : Dev nD) (s : ℕ) : Vec F S256x2048 .f32 :=
  k0_pay2 (iblk m c 3 (pt (s + 1))) (iblk m c 0 (pt (s + 1))) (iblk m c 1 (pt (s + 1))) (Z0 m c s)
/-- x·W_r (step 2). -/
def R0 (c : Dev nD) (s : ℕ) : Vec F S256x2048 .f32 := k0_pay3 (iblk m c 2 (pt (s + 2))) (iblk m c 0 (pt (s + 2)))
/-- The reset gate (step 3). -/
def Rf (c : Dev nD) (s : ℕ) : Vec F S256x2048 .f32 :=
  k0_pay4 (iblk m c 3 (pt (s + 3))) (iblk m c 0 (pt (s + 3))) (iblk m c 1 (pt (s + 3))) (R0 m c s)
/-- x·W_h (step 4). -/
def Wf (c : Dev nD) (s : ℕ) : Vec F S256x2048 .f32 := k0_pay5 (iblk m c 2 (pt (s + 4))) (iblk m c 0 (pt (s + 4)))
/-- The new state of the tile's rows (step 5). -/
def Of (c : Dev nD) (s : ℕ) : Vec F S256x2048 .f32 :=
  k0_pay6 (iblk m c 3 (pt (s + 5))) (Rf m c s) (iblk m c 0 (pt (s + 5))) (iblk m c 1 (pt (s + 5))) (Wf m c s) (Zf m c s)

/-! ## The invariant before point `n` -/

def PhiAt (c : Dev nD) (n : ℕ) : sProp 𝕄 :=
  if n % 6 = 0 then
    iprop(iprop((∃ d, owns (c : Thread nD τ) scZ fullShare d) ∗ (∃ d, owns (c : Thread nD τ) scR fullShare d) ∗ (∃ d, owns (c : Thread nD τ) scW fullShare d)) ∗ (∃ r, prngReg c r))
  else if n % 6 = 1 then
    iprop(iprop(owns (c : Thread nD τ) scZ fullShare (Z0 m c (n - 1)) ∗ (∃ d, owns (c : Thread nD τ) scR fullShare d) ∗ (∃ d, owns (c : Thread nD τ) scW fullShare d)) ∗ (∃ r, prngReg c r))
  else if n % 6 = 2 then
    iprop(iprop(owns (c : Thread nD τ) scZ fullShare (Zf m c (n - 2)) ∗ (∃ d, owns (c : Thread nD τ) scR fullShare d) ∗ (∃ d, owns (c : Thread nD τ) scW fullShare d)) ∗ (∃ r, prngReg c r))
  else if n % 6 = 3 then
    iprop(iprop(owns (c : Thread nD τ) scZ fullShare (Zf m c (n - 3)) ∗ owns (c : Thread nD τ) scR fullShare (R0 m c (n - 3)) ∗ (∃ d, owns (c : Thread nD τ) scW fullShare d)) ∗ (∃ r, prngReg c r))
  else if n % 6 = 4 then
    iprop(iprop(owns (c : Thread nD τ) scZ fullShare (Zf m c (n - 4)) ∗ owns (c : Thread nD τ) scR fullShare (Rf m c (n - 4)) ∗ (∃ d, owns (c : Thread nD τ) scW fullShare d)) ∗ (∃ r, prngReg c r))
  else
    iprop(iprop(owns (c : Thread nD τ) scZ fullShare (Zf m c (n - 5)) ∗ owns (c : Thread nD τ) scR fullShare (Rf m c (n - 5)) ∗ owns (c : Thread nD τ) scW fullShare (Wf m c (n - 5))) ∗ (∃ r, prngReg c r))

theorem PhiAt_0 (c : Dev nD) (n : ℕ) (h : n % 6 = 0) : PhiAt m c n =
    iprop(iprop((∃ d, owns (c : Thread nD τ) scZ fullShare d) ∗ (∃ d, owns (c : Thread nD τ) scR fullShare d) ∗ (∃ d, owns (c : Thread nD τ) scW fullShare d)) ∗ (∃ r, prngReg c r)) := by
  unfold PhiAt; rw [if_pos h]
theorem PhiAt_1 (c : Dev nD) (n : ℕ) (h : n % 6 = 1) : PhiAt m c n =
    iprop(iprop(owns (c : Thread nD τ) scZ fullShare (Z0 m c (n - 1)) ∗ (∃ d, owns (c : Thread nD τ) scR fullShare d) ∗ (∃ d, owns (c : Thread nD τ) scW fullShare d)) ∗ (∃ r, prngReg c r)) := by
  unfold PhiAt; rw [if_neg (by omega), if_pos h]
theorem PhiAt_2 (c : Dev nD) (n : ℕ) (h : n % 6 = 2) : PhiAt m c n =
    iprop(iprop(owns (c : Thread nD τ) scZ fullShare (Zf m c (n - 2)) ∗ (∃ d, owns (c : Thread nD τ) scR fullShare d) ∗ (∃ d, owns (c : Thread nD τ) scW fullShare d)) ∗ (∃ r, prngReg c r)) := by
  unfold PhiAt; rw [if_neg (by omega), if_neg (by omega), if_pos h]
theorem PhiAt_3 (c : Dev nD) (n : ℕ) (h : n % 6 = 3) : PhiAt m c n =
    iprop(iprop(owns (c : Thread nD τ) scZ fullShare (Zf m c (n - 3)) ∗ owns (c : Thread nD τ) scR fullShare (R0 m c (n - 3)) ∗ (∃ d, owns (c : Thread nD τ) scW fullShare d)) ∗ (∃ r, prngReg c r)) := by
  unfold PhiAt; rw [if_neg (by omega), if_neg (by omega), if_neg (by omega), if_pos h]
theorem PhiAt_4 (c : Dev nD) (n : ℕ) (h : n % 6 = 4) : PhiAt m c n =
    iprop(iprop(owns (c : Thread nD τ) scZ fullShare (Zf m c (n - 4)) ∗ owns (c : Thread nD τ) scR fullShare (Rf m c (n - 4)) ∗ (∃ d, owns (c : Thread nD τ) scW fullShare d)) ∗ (∃ r, prngReg c r)) := by
  unfold PhiAt; rw [if_neg (by omega), if_neg (by omega), if_neg (by omega), if_neg (by omega), if_pos h]
theorem PhiAt_5 (c : Dev nD) (n : ℕ) (h : n % 6 = 5) : PhiAt m c n =
    iprop(iprop(owns (c : Thread nD τ) scZ fullShare (Zf m c (n - 5)) ∗ owns (c : Thread nD τ) scR fullShare (Rf m c (n - 5)) ∗ owns (c : Thread nD τ) scW fullShare (Wf m c (n - 5))) ∗ (∃ r, prngReg c r)) := by
  unfold PhiAt; rw [if_neg (by omega), if_neg (by omega), if_neg (by omega), if_neg (by omega), if_neg (by omega)]

/-! ## The pipeline's proof data -/

/-- The arrays as the region finds them; after the body at point `t` each input's buffer at its block and the result
    window's at the new state of the tile (read only at a tile's last step); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Of m c (t.val - 5)
  Φ t := PhiAt m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = Of m c (t.val - 5) := by dsimp only [dats]

theorem before_0 (c : Dev nD) (t : Fin cfg0.N) (d) : (dats m 0 c).before 0 t d = iblk m c 0 t :=
  before_w0 m (dats m 0 c) (A_eq m c 0) (after_0 m c) t d
theorem before_1 (c : Dev nD) (t : Fin cfg0.N) (d) : (dats m 0 c).before 1 t d = iblk m c 1 t :=
  before_w1 m (dats m 0 c) (A_eq m c 1) (after_1 m c) t d
theorem before_2 (c : Dev nD) (t : Fin cfg0.N) (d) : (dats m 0 c).before 2 t d = iblk m c 2 t :=
  before_w2 m (dats m 0 c) (A_eq m c 2) (after_2 m c) t d
theorem before_3 (c : Dev nD) (t : Fin cfg0.N) (d) : (dats m 0 c).before 3 t d = iblk m c 3 t :=
  before_w3 m (dats m 0 c) (A_eq m c 3) (after_3 m c) t d

end Cert.Kernel.Hand

end
-- ==== Proof.K.Body.lean ====
/-
  The body obligation of the fused GRU kernel: at every grid point, from the invariant before the point and the staged
  blocks, the body runs — only the branch of the point's step is taken — to the invariant before the next point, the
  inputs left in place, and the result window either stored (a tile's last step) or handed back untouched.  Then the
  launch: the whole program runs to the end, every array of the pipeline at what the write-backs leave and every
  other buffer as the host lines left it; the eleven argument arrays end unchanged.
-/
import proofs.«173219_j59227599012282_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiAt m c (t.val + 1) from rfl, show (dats m 0 c).Φ t.castSucc = PhiAt m c t.val from rfl]
  have hN : t.val < 192 := lt_of_lt_of_eq t.isLt N192
  rw [show (dats m 0 c).leavesExact 0 t = owns (c : Thread nD τ) (ms0 t) fullShare ((dats m 0 c).after 0 t) from by
    unfold Dat.leavesExact; rw [live_w0 t], after_0]
  rw [show (dats m 0 c).leavesExact 1 t = owns (c : Thread nD τ) (ms1 t) fullShare ((dats m 0 c).after 1 t) from by
    unfold Dat.leavesExact; rw [live_w1 t], after_1]
  rw [show (dats m 0 c).leavesExact 2 t = owns (c : Thread nD τ) (ms2 t) fullShare ((dats m 0 c).after 2 t) from by
    unfold Dat.leavesExact; rw [live_w2 t], after_2]
  rw [show (dats m 0 c).leavesExact 3 t = owns (c : Thread nD τ) (ms3 t) fullShare ((dats m 0 c).after 3 t) from by
    unfold Dat.leavesExact; rw [live_w3 t], after_3]
  rcases (show t.val % 6 = 0 ∨ t.val % 6 = 1 ∨ t.val % 6 = 2 ∨ t.val % 6 = 3 ∨ t.val % 6 = 4 ∨ t.val % 6 = 5 from by omega) with hg | hg | hg | hg | hg | hg
  · -- step 0 of the tile
    have hq0 : cond0 (grid0.coords t) := (hcond0 t).mpr hg
    have hq1 : ¬cond1 (grid0.coords t) := fun hh => by have := (hcond1 t).mp hh; omega
    have hq2 : ¬cond2 (grid0.coords t) := fun hh => by have := (hcond2 t).mp hh; omega
    have hq3 : ¬cond3 (grid0.coords t) := fun hh => by have := (hcond3 t).mp hh; omega
    have hq4 : ¬cond4 (grid0.coords t) := fun hh => by have := (hcond4 t).mp hh; omega
    have hq5 : ¬cond5 (grid0.coords t) := fun hh => by have := (hcond5 t).mp hh; omega
    rw [Dat.leavesExact_idle (dats m 0 c) 4 t (idle_w4 t hq5) (noflush_w4 t hq5)]
    rw [PhiAt_0 m c t.val hg, PhiAt_1 m c (t.val + 1) (by omega)]
    rw [show Z0 m c (t.val + 1 - 1) = k0_pay1 (iblk m c 2 t) (iblk m c 0 t) from by
      unfold Z0; rw [pt_eq (t.val + 1 - 1) t (by omega)]]
    iintro ⟨⟨⟨⟨%z, HZ⟩, ⟨%r, HR⟩, ⟨%u, HW⟩⟩, Hg⟩, Ho, ⟨%d0, H0⟩, ⟨%d1, H1⟩, ⟨%d2, H2⟩, ⟨%d3, H3⟩, ⟨%d4, H4⟩⟩
    iapply (run_g0 c (grid0.coords t) _ _ _ _ _ _ _ _ _ _ _ _ _ _ _ _ hq0 hq1 hq2 hq3 hq4 hq5 (iblk m c 0 t) (iblk m c 1 t) (iblk m c 2 t) (iblk m c 3 t) _ z r u Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexact HZ
        isplitl [HR]; · iexists _; iexact HR
        iexists _; iexact HW
      iexact Hg
    isplitl [Ho]; · iexact Ho
    isplitl [H0]; · iexact H0
    isplitl [H1]; · iexact H1
    isplitl [H2]; · iexact H2
    isplitl [H3]; · iexact H3
    iexists _; iexact H4
  · -- step 1 of the tile
    have hq0 : ¬cond0 (grid0.coords t) := fun hh => by have := (hcond0 t).mp hh; omega
    have hq1 : cond1 (grid0.coords t) := (hcond1 t).mpr hg
    have hq2 : ¬cond2 (grid0.coords t) := fun hh => by have := (hcond2 t).mp hh; omega
    have hq3 : ¬cond3 (grid0.coords t) := fun hh => by have := (hcond3 t).mp hh; omega
    have hq4 : ¬cond4 (grid0.coords t) := fun hh => by have := (hcond4 t).mp hh; omega
    have hq5 : ¬cond5 (grid0.coords t) := fun hh => by have := (hcond5 t).mp hh; omega
    rw [Dat.leavesExact_idle (dats m 0 c) 4 t (idle_w4 t hq5) (noflush_w4 t hq5)]
    rw [PhiAt_1 m c t.val hg, PhiAt_2 m c (t.val + 1) (by omega)]
    rw [show Zf m c (t.val + 1 - 2) = k0_pay2 (iblk m c 3 t) (iblk m c 0 t) (iblk m c 1 t) (Z0 m c (t.val - 1)) from by
      unfold Zf; rw [show t.val + 1 - 2 = t.val - 1 from by omega, pt_eq (t.val - 1 + 1) t (by omega)]]
    iintro ⟨⟨⟨HZ, ⟨%r, HR⟩, ⟨%u, HW⟩⟩, Hg⟩, Ho, ⟨%d0, H0⟩, ⟨%d1, H1⟩, ⟨%d2, H2⟩, ⟨%d3, H3⟩, ⟨%d4, H4⟩⟩
    iapply (run_g1 c (grid0.coords t) _ _ _ _ _ _ _ _ _ _ _ _ _ _ _ _ hq0 hq1 hq2 hq3 hq4 hq5 (iblk m c 0 t) (iblk m c 1 t) (iblk m c 2 t) (iblk m c 3 t) _ _ r u Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexact HZ
        isplitl [HR]; · iexists _; iexact HR
        iexists _; iexact HW
      iexact Hg
    isplitl [Ho]; · iexact Ho
    isplitl [H0]; · iexact H0
    isplitl [H1]; · iexact H1
    isplitl [H2]; · iexact H2
    isplitl [H3]; · iexact H3
    iexists _; iexact H4
  · -- step 2 of the tile
    have hq0 : ¬cond0 (grid0.coords t) := fun hh => by have := (hcond0 t).mp hh; omega
    have hq1 : ¬cond1 (grid0.coords t) := fun hh => by have := (hcond1 t).mp hh; omega
    have hq2 : cond2 (grid0.coords t) := (hcond2 t).mpr hg
    have hq3 : ¬cond3 (grid0.coords t) := fun hh => by have := (hcond3 t).mp hh; omega
    have hq4 : ¬cond4 (grid0.coords t) := fun hh => by have := (hcond4 t).mp hh; omega
    have hq5 : ¬cond5 (grid0.coords t) := fun hh => by have := (hcond5 t).mp hh; omega
    rw [Dat.leavesExact_idle (dats m 0 c) 4 t (idle_w4 t hq5) (noflush_w4 t hq5)]
    rw [PhiAt_2 m c t.val hg, PhiAt_3 m c (t.val + 1) (by omega)]
    rw [show t.val + 1 - 3 = t.val - 2 from by omega]
    rw [show R0 m c (t.val - 2) = k0_pay3 (iblk m c 2 t) (iblk m c 0 t) from by
      unfold R0; rw [pt_eq (t.val - 2 + 2) t (by omega)]]
    iintro ⟨⟨⟨HZ, ⟨%r, HR⟩, ⟨%u, HW⟩⟩, Hg⟩, Ho, ⟨%d0, H0⟩, ⟨%d1, H1⟩, ⟨%d2, H2⟩, ⟨%d3, H3⟩, ⟨%d4, H4⟩⟩
    iapply (run_g2 c (grid0.coords t) _ _ _ _ _ _ _ _ _ _ _ _ _ _ _ _ hq0 hq1 hq2 hq3 hq4 hq5 (iblk m c 0 t) (iblk m c 1 t) (iblk m c 2 t) (iblk m c 3 t) _ _ r u Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexact HZ
        isplitl [HR]; · iexact HR
        iexists _; iexact HW
      iexact Hg
    isplitl [Ho]; · iexact Ho
    isplitl [H0]; · iexact H0
    isplitl [H1]; · iexact H1
    isplitl [H2]; · iexact H2
    isplitl [H3]; · iexact H3
    iexists _; iexact H4
  · -- step 3 of the tile
    have hq0 : ¬cond0 (grid0.coords t) := fun hh => by have := (hcond0 t).mp hh; omega
    have hq1 : ¬cond1 (grid0.coords t) := fun hh => by have := (hcond1 t).mp hh; omega
    have hq2 : ¬cond2 (grid0.coords t) := fun hh => by have := (hcond2 t).mp hh; omega
    have hq3 : cond3 (grid0.coords t) := (hcond3 t).mpr hg
    have hq4 : ¬cond4 (grid0.coords t) := fun hh => by have := (hcond4 t).mp hh; omega
    have hq5 : ¬cond5 (grid0.coords t) := fun hh => by have := (hcond5 t).mp hh; omega
    rw [Dat.leavesExact_idle (dats m 0 c) 4 t (idle_w4 t hq5) (noflush_w4 t hq5)]
    rw [PhiAt_3 m c t.val hg, PhiAt_4 m c (t.val + 1) (by omega)]
    rw [show t.val + 1 - 4 = t.val - 3 from by omega]
    rw [show Rf m c (t.val - 3) = k0_pay4 (iblk m c 3 t) (iblk m c 0 t) (iblk m c 1 t) (R0 m c (t.val - 3)) from by
      unfold Rf; rw [pt_eq (t.val - 3 + 3) t (by omega)]]
    iintro ⟨⟨⟨HZ, HR, ⟨%u, HW⟩⟩, Hg⟩, Ho, ⟨%d0, H0⟩, ⟨%d1, H1⟩, ⟨%d2, H2⟩, ⟨%d3, H3⟩, ⟨%d4, H4⟩⟩
    iapply (run_g3 c (grid0.coords t) _ _ _ _ _ _ _ _ _ _ _ _ _ _ _ _ hq0 hq1 hq2 hq3 hq4 hq5 (iblk m c 0 t) (iblk m c 1 t) (iblk m c 2 t) (iblk m c 3 t) _ _ _ u Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexact HZ
        isplitl [HR]; · iexact HR
        iexists _; iexact HW
      iexact Hg
    isplitl [Ho]; · iexact Ho
    isplitl [H0]; · iexact H0
    isplitl [H1]; · iexact H1
    isplitl [H2]; · iexact H2
    isplitl [H3]; · iexact H3
    iexists _; iexact H4
  · -- step 4 of the tile
    have hq0 : ¬cond0 (grid0.coords t) := fun hh => by have := (hcond0 t).mp hh; omega
    have hq1 : ¬cond1 (grid0.coords t) := fun hh => by have := (hcond1 t).mp hh; omega
    have hq2 : ¬cond2 (grid0.coords t) := fun hh => by have := (hcond2 t).mp hh; omega
    have hq3 : ¬cond3 (grid0.coords t) := fun hh => by have := (hcond3 t).mp hh; omega
    have hq4 : cond4 (grid0.coords t) := (hcond4 t).mpr hg
    have hq5 : ¬cond5 (grid0.coords t) := fun hh => by have := (hcond5 t).mp hh; omega
    rw [Dat.leavesExact_idle (dats m 0 c) 4 t (idle_w4 t hq5) (noflush_w4 t hq5)]
    rw [PhiAt_4 m c t.val hg, PhiAt_5 m c (t.val + 1) (by omega)]
    rw [show t.val + 1 - 5 = t.val - 4 from by omega]
    rw [show Wf m c (t.val - 4) = k0_pay5 (iblk m c 2 t) (iblk m c 0 t) from by
      unfold Wf; rw [pt_eq (t.val - 4 + 4) t (by omega)]]
    iintro ⟨⟨⟨HZ, HR, ⟨%u, HW⟩⟩, Hg⟩, Ho, ⟨%d0, H0⟩, ⟨%d1, H1⟩, ⟨%d2, H2⟩, ⟨%d3, H3⟩, ⟨%d4, H4⟩⟩
    iapply (run_g4 c (grid0.coords t) _ _ _ _ _ _ _ _ _ _ _ _ _ _ _ _ hq0 hq1 hq2 hq3 hq4 hq5 (iblk m c 0 t) (iblk m c 1 t) (iblk m c 2 t) (iblk m c 3 t) _ _ _ u Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexact HZ
        isplitl [HR]; · iexact HR
        iexact HW
      iexact Hg
    isplitl [Ho]; · iexact Ho
    isplitl [H0]; · iexact H0
    isplitl [H1]; · iexact H1
    isplitl [H2]; · iexact H2
    isplitl [H3]; · iexact H3
    iexists _; iexact H4
  · -- step 5 of the tile
    have hq0 : ¬cond0 (grid0.coords t) := fun hh => by have := (hcond0 t).mp hh; omega
    have hq1 : ¬cond1 (grid0.coords t) := fun hh => by have := (hcond1 t).mp hh; omega
    have hq2 : ¬cond2 (grid0.coords t) := fun hh => by have := (hcond2 t).mp hh; omega
    have hq3 : ¬cond3 (grid0.coords t) := fun hh => by have := (hcond3 t).mp hh; omega
    have hq4 : ¬cond4 (grid0.coords t) := fun hh => by have := (hcond4 t).mp hh; omega
    have hq5 : cond5 (grid0.coords t) := (hcond5 t).mpr hg
    rw [show (dats m 0 c).leavesExact 4 t = owns (c : Thread nD τ) (ms4 t) fullShare ((dats m 0 c).after 4 t) from by
      unfold Dat.leavesExact; rw [live_w4 t hq5], after_4]
    rw [PhiAt_5 m c t.val hg, PhiAt_0 m c (t.val + 1) (by omega)]
    rw [show Of m c (t.val - 5) = k0_pay6 (iblk m c 3 t) (Rf m c (t.val - 5)) (iblk m c 0 t) (iblk m c 1 t) (Wf m c (t.val - 5)) (Zf m c (t.val - 5)) from by
      unfold Of; rw [pt_eq (t.val - 5 + 5) t (by omega)]]
    iintro ⟨⟨⟨HZ, HR, HW⟩, Hg⟩, Ho, ⟨%d0, H0⟩, ⟨%d1, H1⟩, ⟨%d2, H2⟩, ⟨%d3, H3⟩, ⟨%d4, H4⟩⟩
    iapply (run_g5 c (grid0.coords t) _ _ _ _ _ _ _ _ _ _ _ _ _ _ _ _ hq0 hq1 hq2 hq3 hq4 hq5 (iblk m c 0 t) (iblk m c 1 t) (iblk m c 2 t) (iblk m c 3 t) _ _ _ _ Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexists _; iexact HZ
        isplitl [HR]; · iexists _; iexact HR
        iexists _; iexact HW
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: all three accumulators at anything. -/
theorem hin (c : Dev nD) : Pipeline.ΦA spec0 c ⊢ (dats m 0 c).Φ 0 := by
  rw [show (dats m 0 c).Φ 0 = PhiAt m c 0 from rfl, PhiAt_0 m c 0 rfl, PhiA_eq]
  try exact Idealize.SL.BI.Entails.refl _

/-- After the last point (the end of a tile) the invariant is the launch's again. -/
theorem hout (c : Dev nD) : (dats m 0 c).Φ (Fin.last cfg0.N) ⊢ Pipeline.ΦA spec0 c := by
  rw [show (dats m 0 c).Φ (Fin.last cfg0.N) = PhiAt m c cfg0.N from rfl, PhiAt_0 m c cfg0.N (by rw [N192]), PhiA_eq]
  try exact Idealize.SL.BI.Entails.refl _

set_option backward.isDefEq.respectTransparency.types false in
/-- Every weakly fair execution of @main terminates, nothing faulting; every array of the pipeline ends at what the
    write-backs leave (the proof data's `arrAt`), every other unscoped buffer as the host lines left it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel.Hand

end
-- ==== Proof.K.Frame.lean ====
/-
  The frame of the fused GRU program: it runs to the end, nothing faults, and its eleven argument arrays end as they
  began.  The two batch arrays are inputs of the pipeline (an input's array is never written); the nine weight and
  bias arrays bypass the region (the host lines read them and write only their own results).
-/
import proofs.«173219_j59227599012282_2_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line writes an argument array. -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl
theorem V_arg6 (c : Dev nD) : V m c main_arg6 = m ((c : Thread nD τ).loc main_arg6) := rfl
theorem V_arg7 (c : Dev nD) : V m c main_arg7 = m ((c : Thread nD τ).loc main_arg7) := rfl
theorem V_arg8 (c : Dev nD) : V m c main_arg8 = m ((c : Thread nD τ).loc main_arg8) := rfl
theorem V_arg9 (c : Dev nD) : V m c main_arg9 = m ((c : Thread nD τ).loc main_arg9) := rfl
theorem V_arg10 (c : Dev nD) : V m c main_arg10 = m ((c : Thread nD τ).loc main_arg10) := rfl

/-- The argument arrays after any run that ends in the frame run's post. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(((h c).1 2).trans (((dats m 0 c).arrAt_in 2 rfl _).trans ((A_eq m c 2).trans (V_arg0 m c)))),
   (((h c).1 3).trans (((dats m 0 c).arrAt_in 3 rfl _).trans ((A_eq m c 3).trans (V_arg1 m c)))),
   ((h c).2 main_arg2 (Pipeline.mem_restRefs_of main_arg2 (by decide) (by decide))).trans (V_arg2 m c),
   ((h c).2 main_arg3 (Pipeline.mem_restRefs_of main_arg3 (by decide) (by decide))).trans (V_arg3 m c),
   ((h c).2 main_arg4 (Pipeline.mem_restRefs_of main_arg4 (by decide) (by decide))).trans (V_arg4 m c),
   ((h c).2 main_arg5 (Pipeline.mem_restRefs_of main_arg5 (by decide) (by decide))).trans (V_arg5 m c),
   ((h c).2 main_arg6 (Pipeline.mem_restRefs_of main_arg6 (by decide) (by decide))).trans (V_arg6 m c),
   ((h c).2 main_arg7 (Pipeline.mem_restRefs_of main_arg7 (by decide) (by decide))).trans (V_arg7 m c),
   ((h c).2 main_arg8 (Pipeline.mem_restRefs_of main_arg8 (by decide) (by decide))).trans (V_arg8 m c),
   ((h c).2 main_arg9 (Pipeline.mem_restRefs_of main_arg9 (by decide) (by decide))).trans (V_arg9 m c),
   ((h c).2 main_arg10 (Pipeline.mem_restRefs_of main_arg10 (by decide) (by decide))).trans (V_arg10 m c)⟩

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_args m r h c) (run_main m ρ)

end Cert.Kernel.Hand

end
-- ==== Proof.KI.Kit.lean ====
/-
  The fused GRU kernel's launch, read off the printed program: what the arrays hold when the region is entered (the
  stacked weights and biases the host lines build), each window's block at a grid point, the six branch conditions of
  the body in closed form over the grid (the point's position inside its batch tile), where the output window is
  idle, and the three accumulators the body keeps between points as whole buffers.
-/
import proofs.«173219_j59227599012282_2_alg».proof.Proof.Gen.KernelIdeal.Launch
import proofs.«173219_j59227599012282_2_alg».proof.Proof.Gen.KernelIdeal.Skeleton
import proofs.«173219_j59227599012282_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the thirteen host lines that stack the six weight matrices
    (cast to the narrow format) and the three bias vectors. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor

/-- @main is the host lines, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (an unfetched window's
    block index has not moved), for any proof data whose arrays are the region-entry ones and whose body leaves
    the inputs in place. -/
theorem before_w0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_w2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_w3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's six branches: which step of its batch tile a point is -/

abbrev cond0 (i : grid0.Coords) : Prop := (Scalar.cmpi .ne (Scalar.extui (Scalar.cmpi .eq (BitVec.ofNat 32 (i 1).val) 0#32)) 0#32) = 1#1
abbrev cond1 (i : grid0.Coords) : Prop := (Scalar.cmpi .ne (Scalar.extui (Scalar.cmpi .eq (BitVec.ofNat 32 (i 1).val) 1#32)) 0#32) = 1#1
abbrev cond2 (i : grid0.Coords) : Prop := (Scalar.cmpi .ne (Scalar.extui (Scalar.cmpi .eq (BitVec.ofNat 32 (i 1).val) 2#32)) 0#32) = 1#1
abbrev cond3 (i : grid0.Coords) : Prop := (Scalar.cmpi .ne (Scalar.extui (Scalar.cmpi .eq (BitVec.ofNat 32 (i 1).val) 3#32)) 0#32) = 1#1
abbrev cond4 (i : grid0.Coords) : Prop := (Scalar.cmpi .ne (Scalar.extui (Scalar.cmpi .eq (BitVec.ofNat 32 (i 1).val) 4#32)) 0#32) = 1#1
abbrev cond5 (i : grid0.Coords) : Prop := k0_cond6 i = 1#1

/-- Branch `j` is taken exactly at the points whose position in the batch tile is `j`: decided over the 192 points. -/
theorem hcond0 : ∀ t : Fin cfg0.N, cond0 (grid0.coords t) ↔ t.val % 6 = 0 :=
  (by decide +kernel : ∀ t : Fin grid0.N, cond0 (grid0.coords t) ↔ t.val % 6 = 0)
theorem hcond1 : ∀ t : Fin cfg0.N, cond1 (grid0.coords t) ↔ t.val % 6 = 1 :=
  (by decide +kernel : ∀ t : Fin grid0.N, cond1 (grid0.coords t) ↔ t.val % 6 = 1)
theorem hcond2 : ∀ t : Fin cfg0.N, cond2 (grid0.coords t) ↔ t.val % 6 = 2 :=
  (by decide +kernel : ∀ t : Fin grid0.N, cond2 (grid0.coords t) ↔ t.val % 6 = 2)
theorem hcond3 : ∀ t : Fin cfg0.N, cond3 (grid0.coords t) ↔ t.val % 6 = 3 :=
  (by decide +kernel : ∀ t : Fin grid0.N, cond3 (grid0.coords t) ↔ t.val % 6 = 3)
theorem hcond4 : ∀ t : Fin cfg0.N, cond4 (grid0.coords t) ↔ t.val % 6 = 4 :=
  (by decide +kernel : ∀ t : Fin grid0.N, cond4 (grid0.coords t) ↔ t.val % 6 = 4)
theorem hcond5 : ∀ t : Fin cfg0.N, cond5 (grid0.coords t) ↔ t.val % 6 = 5 :=
  (by decide +kernel : ∀ t : Fin grid0.N, cond5 (grid0.coords t) ↔ t.val % 6 = 5)

/-! ## Where the windows are idle -/

theorem live_w0 : ∀ t : Fin cfg0.N, cfg0.idle 0 (grid0.coords t) = false := by decide +kernel
theorem live_w1 : ∀ t : Fin cfg0.N, cfg0.idle 1 (grid0.coords t) = false := by decide +kernel
theorem live_w2 : ∀ t : Fin cfg0.N, cfg0.idle 2 (grid0.coords t) = false := by decide +kernel
theorem live_w3 : ∀ t : Fin cfg0.N, cfg0.idle 3 (grid0.coords t) = false := by decide +kernel
/-- The result window is stored only at a tile's last step; elsewhere it is idle and not written back. -/
theorem idle_w4 : ∀ t : Fin cfg0.N, ¬cond5 (grid0.coords t) → cfg0.idle 4 (grid0.coords t) = true := by decide +kernel
theorem noflush_w4 : ∀ t : Fin cfg0.N, ¬cond5 (grid0.coords t) → (cfg0.win 4).flush t = false := by decide +kernel
theorem live_w4 : ∀ t : Fin cfg0.N, cond5 (grid0.coords t) → cfg0.idle 4 (grid0.coords t) = false := by decide +kernel

/-! ## The memrefs the body is called with -/

abbrev ms0 (t : Fin cfg0.N) : Memref sig .tc .vmem S1x2048x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2048 .f32 := win0_4.stage (cfg0.slots t 4)
abbrev hs4 (t : Fin cfg0.N) : (ms4 t).IsWhole := hstage0_4 ((cfg0.slots t 4).cast nbuf0_4)
/-- The three accumulators: the update gate's, the reset gate's, the candidate's input projection. -/
abbrev scZ : Memref sig .tc .vmem S256x2048 .f32 := Memref.whole cc0_scratch0
abbrev scR : Memref sig .tc .vmem S256x2048 .f32 := Memref.whole cc0_scratch1
abbrev scW : Memref sig .tc .vmem S256x2048 .f32 := Memref.whole cc0_scratch2

/-- The region's own invariant with the accumulators as memrefs owned at some contents. -/
theorem PhiA_eq (c : Dev nD) :
    (Pipeline.ΦA spec0 c : sProp 𝕄)
      = iprop(iprop((∃ d, owns (c : Thread nD τ) scZ fullShare d) ∗ (∃ d, owns (c : Thread nD τ) scR fullShare d) ∗ (∃ d, owns (c : Thread nD τ) scW fullShare d)) ∗ (∃ r, prngReg c r)) := by
  unfold Pipeline.ΦA; rw [scopedRest0_eq]; simp only [scZ, scR, scW, owns_whole]; try rfl

end Cert.KernelIdeal.Hand

end
-- ==== Proof.KI.Run0.lean ====
/-
  Step 0 of a batch tile, run on any whole staging buffers and accumulators: only the branch of this step is
  taken; every buffer is handed back as it was found except the one the step stores into, which ends at the step's
  value of the loaded blocks.
-/
import proofs.«173219_j59227599012282_2_alg».proof.Proof.KI.Kit
import proofs.«173219_j59227599012282_2_alg».proof.Proof.LibWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_0 : (![0, 0] : Fin 2 → ℕ) = fun _ => 0 := by funext a; fin_cases a <;> rfl
theorem zero3_0 : (![0, 0, 0] : Fin 3 → ℕ) = fun _ => 0 := by funext a; fin_cases a <;> rfl

set_option maxHeartbeats 1000000 in
theorem run_g0 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : cond0 i) (hc1 : ¬cond1 i) (hc2 : ¬cond2 i) (hc3 : ¬cond3 i) (hc4 : ¬cond4 i) (hc5 : ¬cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare (k0_pay1 x w) ∗ owns (c : Thread nD τ) a8 fullShare r ∗ owns (c : Thread nD τ) a9 fullShare u) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_0
  have zero3 := zero3_0
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    have e2 : ∀ f, View.readAt (Elt F) a2.view (Rect.unit ![0, 0, 0] S1x2048x2048.size inb_S1x2048x2048_S1x2048x2048_0_0_0).toLoadRect f = a2.view.read (Elt F) f :=
      fun f => Cert.LibWhole.readAt_whole a2.view f zero3 _
    have e3 : ∀ f, View.readAt (Elt F) a3.view (Rect.unit ![0, 0, 0] S1x1x2048.size inb_S1x1x2048_S1x1x2048_0_0_0).toLoadRect f = a3.view.read (Elt F) f :=
      fun f => Cert.LibWhole.readAt_whole a3.view f zero3 _
    have e4 : ∀ (a : Memref sig .tc .vmem S256x2048 .f32) f, View.readAt (Elt F) a.view (Rect.unit ![0, 0] S256x2048.size inb_S256x2048_S256x2048_0_0).toLoadRect f = a.view.read (Elt F) f :=
      fun a f => Cert.LibWhole.readAt_whole a.view f zero2 _
    exact (Cert.LibWhole.read_writes_whole a7.view _ zero2 _ _).trans (by
      simp only [e2, e3, e4, hf2, hf3, hf4, hf5, hf6, hf7, hf8, hf9])
  isplitl [H8]
  · iexists _; isplitr; · ipureintro; exact hf8
    iexact H8
  iexists _; isplitr; · ipureintro; exact hf9
  iexact H9

end Cert.KernelIdeal.Hand

end
-- ==== Proof.KI.Run1.lean ====
/-
  Step 1 of a batch tile, run on any whole staging buffers and accumulators: only the branch of this step is
  taken; every buffer is handed back as it was found except the one the step stores into, which ends at the step's
  value of the loaded blocks.
-/
import proofs.«173219_j59227599012282_2_alg».proof.Proof.KI.Kit
import proofs.«173219_j59227599012282_2_alg».proof.Proof.LibWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_1 : (![0, 0] : Fin 2 → ℕ) = fun _ => 0 := by funext a; fin_cases a <;> rfl
theorem zero3_1 : (![0, 0, 0] : Fin 3 → ℕ) = fun _ => 0 := by funext a; fin_cases a <;> rfl

set_option maxHeartbeats 1000000 in
theorem run_g1 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : ¬cond0 i) (hc1 : cond1 i) (hc2 : ¬cond2 i) (hc3 : ¬cond3 i) (hc4 : ¬cond4 i) (hc5 : ¬cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare (k0_pay2 h w bi z) ∗ owns (c : Thread nD τ) a8 fullShare r ∗ owns (c : Thread nD τ) a9 fullShare u) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_1
  have zero3 := zero3_1
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    have e2 : ∀ f, View.readAt (Elt F) a2.view (Rect.unit ![0, 0, 0] S1x2048x2048.size inb_S1x2048x2048_S1x2048x2048_0_0_0).toLoadRect f = a2.view.read (Elt F) f :=
      fun f => Cert.LibWhole.readAt_whole a2.view f zero3 _
    have e3 : ∀ f, View.readAt (Elt F) a3.view (Rect.unit ![0, 0, 0] S1x1x2048.size inb_S1x1x2048_S1x1x2048_0_0_0).toLoadRect f = a3.view.read (Elt F) f :=
      fun f => Cert.LibWhole.readAt_whole a3.view f zero3 _
    have e4 : ∀ (a : Memref sig .tc .vmem S256x2048 .f32) f, View.readAt (Elt F) a.view (Rect.unit ![0, 0] S256x2048.size inb_S256x2048_S256x2048_0_0).toLoadRect f = a.view.read (Elt F) f :=
      fun a f => Cert.LibWhole.readAt_whole a.view f zero2 _
    exact (Cert.LibWhole.read_writes_whole a7.view _ zero2 _ _).trans (by
      simp only [e2, e3, e4, hf2, hf3, hf4, hf5, hf6, hf7, hf8, hf9])
  isplitl [H8]
  · iexists _; isplitr; · ipureintro; exact hf8
    iexact H8
  iexists _; isplitr; · ipureintro; exact hf9
  iexact H9

end Cert.KernelIdeal.Hand

end
-- ==== Proof.KI.Run2.lean ====
/-
  Step 2 of a batch tile, run on any whole staging buffers and accumulators: only the branch of this step is
  taken; every buffer is handed back as it was found except the one the step stores into, which ends at the step's
  value of the loaded blocks.
-/
import proofs.«173219_j59227599012282_2_alg».proof.Proof.KI.Kit
import proofs.«173219_j59227599012282_2_alg».proof.Proof.LibWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_2 : (![0, 0] : Fin 2 → ℕ) = fun _ => 0 := by funext a; fin_cases a <;> rfl
theorem zero3_2 : (![0, 0, 0] : Fin 3 → ℕ) = fun _ => 0 := by funext a; fin_cases a <;> rfl

set_option maxHeartbeats 1000000 in
theorem run_g2 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : ¬cond0 i) (hc1 : ¬cond1 i) (hc2 : cond2 i) (hc3 : ¬cond3 i) (hc4 : ¬cond4 i) (hc5 : ¬cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare (k0_pay3 x w) ∗ owns (c : Thread nD τ) a9 fullShare u) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_2
  have zero3 := zero3_2
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    have e2 : ∀ f, View.readAt (Elt F) a2.view (Rect.unit ![0, 0, 0] S1x2048x2048.size inb_S1x2048x2048_S1x2048x2048_0_0_0).toLoadRect f = a2.view.read (Elt F) f :=
      fun f => Cert.LibWhole.readAt_whole a2.view f zero3 _
    have e3 : ∀ f, View.readAt (Elt F) a3.view (Rect.unit ![0, 0, 0] S1x1x2048.size inb_S1x1x2048_S1x1x2048_0_0_0).toLoadRect f = a3.view.read (Elt F) f :=
      fun f => Cert.LibWhole.readAt_whole a3.view f zero3 _
    have e4 : ∀ (a : Memref sig .tc .vmem S256x2048 .f32) f, View.readAt (Elt F) a.view (Rect.unit ![0, 0] S256x2048.size inb_S256x2048_S256x2048_0_0).toLoadRect f = a.view.read (Elt F) f :=
      fun a f => Cert.LibWhole.readAt_whole a.view f zero2 _
    exact (Cert.LibWhole.read_writes_whole a8.view _ zero2 _ _).trans (by
      simp only [e2, e3, e4, hf2, hf3, hf4, hf5, hf6, hf7, hf8, hf9])
  iexists _; isplitr; · ipureintro; exact hf9
  iexact H9

end Cert.KernelIdeal.Hand

end
-- ==== Proof.KI.Run3.lean ====
/-
  Step 3 of a batch tile, run on any whole staging buffers and accumulators: only the branch of this step is
  taken; every buffer is handed back as it was found except the one the step stores into, which ends at the step's
  value of the loaded blocks.
-/
import proofs.«173219_j59227599012282_2_alg».proof.Proof.KI.Kit
import proofs.«173219_j59227599012282_2_alg».proof.Proof.LibWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_3 : (![0, 0] : Fin 2 → ℕ) = fun _ => 0 := by funext a; fin_cases a <;> rfl
theorem zero3_3 : (![0, 0, 0] : Fin 3 → ℕ) = fun _ => 0 := by funext a; fin_cases a <;> rfl

set_option maxHeartbeats 1000000 in
theorem run_g3 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : ¬cond0 i) (hc1 : ¬cond1 i) (hc2 : ¬cond2 i) (hc3 : cond3 i) (hc4 : ¬cond4 i) (hc5 : ¬cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare (k0_pay4 h w bi r) ∗ owns (c : Thread nD τ) a9 fullShare u) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_3
  have zero3 := zero3_3
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    have e2 : ∀ f, View.readAt (Elt F) a2.view (Rect.unit ![0, 0, 0] S1x2048x2048.size inb_S1x2048x2048_S1x2048x2048_0_0_0).toLoadRect f = a2.view.read (Elt F) f :=
      fun f => Cert.LibWhole.readAt_whole a2.view f zero3 _
    have e3 : ∀ f, View.readAt (Elt F) a3.view (Rect.unit ![0, 0, 0] S1x1x2048.size inb_S1x1x2048_S1x1x2048_0_0_0).toLoadRect f = a3.view.read (Elt F) f :=
      fun f => Cert.LibWhole.readAt_whole a3.view f zero3 _
    have e4 : ∀ (a : Memref sig .tc .vmem S256x2048 .f32) f, View.readAt (Elt F) a.view (Rect.unit ![0, 0] S256x2048.size inb_S256x2048_S256x2048_0_0).toLoadRect f = a.view.read (Elt F) f :=
      fun a f => Cert.LibWhole.readAt_whole a.view f zero2 _
    exact (Cert.LibWhole.read_writes_whole a8.view _ zero2 _ _).trans (by
      simp only [e2, e3, e4, hf2, hf3, hf4, hf5, hf6, hf7, hf8, hf9])
  iexists _; isplitr; · ipureintro; exact hf9
  iexact H9

end Cert.KernelIdeal.Hand

end
-- ==== Proof.KI.Run4.lean ====
/-
  Step 4 of a batch tile, run on any whole staging buffers and accumulators: only the branch of this step is
  taken; every buffer is handed back as it was found except the one the step stores into, which ends at the step's
  value of the loaded blocks.
-/
import proofs.«173219_j59227599012282_2_alg».proof.Proof.KI.Kit
import proofs.«173219_j59227599012282_2_alg».proof.Proof.LibWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_4 : (![0, 0] : Fin 2 → ℕ) = fun _ => 0 := by funext a; fin_cases a <;> rfl
theorem zero3_4 : (![0, 0, 0] : Fin 3 → ℕ) = fun _ => 0 := by funext a; fin_cases a <;> rfl

set_option maxHeartbeats 1000000 in
theorem run_g4 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : ¬cond0 i) (hc1 : ¬cond1 i) (hc2 : ¬cond2 i) (hc3 : ¬cond3 i) (hc4 : cond4 i) (hc5 : ¬cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare (k0_pay5 x w)) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_4
  have zero3 := zero3_4
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  iexists _; isplitr
  swap; · iexact H9
  ipureintro
  have e2 : ∀ f, View.readAt (Elt F) a2.view (Rect.unit ![0, 0, 0] S1x2048x2048.size inb_S1x2048x2048_S1x2048x2048_0_0_0).toLoadRect f = a2.view.read (Elt F) f :=
    fun f => Cert.LibWhole.readAt_whole a2.view f zero3 _
  have e3 : ∀ f, View.readAt (Elt F) a3.view (Rect.unit ![0, 0, 0] S1x1x2048.size inb_S1x1x2048_S1x1x2048_0_0_0).toLoadRect f = a3.view.read (Elt F) f :=
    fun f => Cert.LibWhole.readAt_whole a3.view f zero3 _
  have e4 : ∀ (a : Memref sig .tc .vmem S256x2048 .f32) f, View.readAt (Elt F) a.view (Rect.unit ![0, 0] S256x2048.size inb_S256x2048_S256x2048_0_0).toLoadRect f = a.view.read (Elt F) f :=
    fun a f => Cert.LibWhole.readAt_whole a.view f zero2 _
  exact (Cert.LibWhole.read_writes_whole a9.view _ zero2 _ _).trans (by
    simp only [e2, e3, e4, hf2, hf3, hf4, hf5, hf6, hf7, hf8, hf9])

end Cert.KernelIdeal.Hand

end
-- ==== Proof.KI.Run5.lean ====
/-
  Step 5 of a batch tile, run on any whole staging buffers and accumulators: only the branch of this step is
  taken; every buffer is handed back as it was found except the one the step stores into, which ends at the step's
  value of the loaded blocks.
-/
import proofs.«173219_j59227599012282_2_alg».proof.Proof.KI.Kit
import proofs.«173219_j59227599012282_2_alg».proof.Proof.LibWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2_5 : (![0, 0] : Fin 2 → ℕ) = fun _ => 0 := by funext a; fin_cases a <;> rfl
theorem zero3_5 : (![0, 0, 0] : Fin 3 → ℕ) = fun _ => 0 := by funext a; fin_cases a <;> rfl

set_option maxHeartbeats 1000000 in
theorem run_g5 (c : Dev nD) (i : grid0.Coords) (a2 : Memref sig .tc .vmem S1x2048x2048 .bf16) (h2 : a2.IsWhole) (a3 : Memref sig .tc .vmem S1x1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole)
    (hc0 : ¬cond0 i) (hc1 : ¬cond1 i) (hc2 : ¬cond2 i) (hc3 : ¬cond3 i) (hc4 : ¬cond4 i) (hc5 : cond5 i)
    (w : Vec F S1x2048x2048 .bf16) (bi : Vec F S1x1x2048 .f32) (x h o z r u : Vec F S256x2048 .f32)
    (E : Set ℕ) (K : PUnit → sProp 𝕄) :
    iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare o ∗ owns (c : Thread nD τ) a7 fullShare z ∗ owns (c : Thread nD τ) a8 fullShare r ∗ owns (c : Thread nD τ) a9 fullShare u
        ∗ (iprop(owns (c : Thread nD τ) a2 fullShare w ∗ owns (c : Thread nD τ) a3 fullShare bi ∗ owns (c : Thread nD τ) a4 fullShare x ∗ owns (c : Thread nD τ) a5 fullShare h ∗ owns (c : Thread nD τ) a6 fullShare (k0_pay6 h r w bi u z) ∗ owns (c : Thread nD τ) a7 fullShare z ∗ owns (c : Thread nD τ) a8 fullShare r ∗ owns (c : Thread nD τ) a9 fullShare u) -∗ K ⟨⟩))
      ⊢ wp frame (wpE (defs₀ (F := F)) Variants.none c none) E (cc0__gru_kernel i a2 h2 a3 h3 a4 h4 a5 h5 a6 h6 a7 h7 a8 h8 a9 h9) K := by
  have zero2 := zero2_5
  have zero3 := zero3_5
  simp only [cc0__gru_kernel_eq_skeleton]; unfold cc0__gru_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8; obtain rfl := h9.eq_unread hf9
  sl_exec (disch := first | exact hc0 | exact hc1 | exact hc2 | exact hc3 | exact hc4 | exact hc5)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    have e2 : ∀ f, View.readAt (Elt F) a2.view (Rect.unit ![0, 0, 0] S1x2048x2048.size inb_S1x2048x2048_S1x2048x2048_0_0_0).toLoadRect f = a2.view.read (Elt F) f :=
      fun f => Cert.LibWhole.readAt_whole a2.view f zero3 _
    have e3 : ∀ f, View.readAt (Elt F) a3.view (Rect.unit ![0, 0, 0] S1x1x2048.size inb_S1x1x2048_S1x1x2048_0_0_0).toLoadRect f = a3.view.read (Elt F) f :=
      fun f => Cert.LibWhole.readAt_whole a3.view f zero3 _
    have e4 : ∀ (a : Memref sig .tc .vmem S256x2048 .f32) f, View.readAt (Elt F) a.view (Rect.unit ![0, 0] S256x2048.size inb_S256x2048_S256x2048_0_0).toLoadRect f = a.view.read (Elt F) f :=
      fun a f => Cert.LibWhole.readAt_whole a.view f zero2 _
    exact (Cert.LibWhole.read_writes_whole a6.view _ zero2 _ _).trans (by
      simp only [e2, e3, e4, hf2, hf3, hf4, hf5, hf6, hf7, hf8, hf9])
  isplitl [H7]
  · iexists _; isplitr; · ipureintro; exact hf7
    iexact H7
  isplitl [H8]
  · iexists _; isplitr; · ipureintro; exact hf8
    iexact H8
  iexists _; isplitr; · ipureintro; exact hf9
  iexact H9

end Cert.KernelIdeal.Hand

end
-- ==== Proof.KI.Data.lean ====
/-
  What the fused GRU kernel holds point by point.  The 192 grid points run through 32 batch tiles of six steps.
  Within a tile that starts at point `s`: after step 0 the update accumulator holds the input projection x·W_z of the
  tile's rows; after step 1 the update gate z; after step 2 the reset accumulator holds x·W_r; after step 3 the reset
  gate r; after step 4 the third accumulator holds x·W_h; step 5 stores the new state of the tile's rows into the
  result window, which is written back there and only there.  Each is the body's own value (its named payload) of
  the blocks the pipeline staged at that step.  The invariant before point `n` names exactly the accumulators a
  later step of the same tile still reads; the others, and all three at a tile's start, hold anything.
-/
import proofs.«173219_j59227599012282_2_alg».proof.Proof.KI.Run0
import proofs.«173219_j59227599012282_2_alg».proof.Proof.KI.Run1
import proofs.«173219_j59227599012282_2_alg».proof.Proof.KI.Run2
import proofs.«173219_j59227599012282_2_alg».proof.Proof.KI.Run3
import proofs.«173219_j59227599012282_2_alg».proof.Proof.KI.Run4
import proofs.«173219_j59227599012282_2_alg».proof.Proof.KI.Run5

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 192 points. -/
theorem N192 : cfg0.N = 192 := N_0

/-- Point number `n` (wrapped into the grid, so that the terms below are total). -/
def pt (n : ℕ) : Fin cfg0.N := ⟨n % 192, lt_of_lt_of_eq (Nat.mod_lt n (by decide : 192 > 0)) N192.symm⟩

theorem pt_eq (n : ℕ) (t : Fin cfg0.N) (h : n = t.val) : pt n = t :=
  Fin.ext (by show n % 192 = t.val; have := lt_of_lt_of_eq t.isLt N192; omega)

/-! ## The accumulators through a tile that starts at point `s` -/

/-- x·W_z of the tile's rows (step 0). -/
def Z0 (c : Dev nD) (s : ℕ) : Vec F S256x2048 .f32 := k0_pay1 (iblk m c 2 (pt s)) (iblk m c 0 (pt s))
/-- The update gate (step 1). -/
def Zf (c : Dev nD) (s : ℕ) : Vec F S256x2048 .f32 :=
  k0_pay2 (iblk m c 3 (pt (s + 1))) (iblk m c 0 (pt (s + 1))) (iblk m c 1 (pt (s + 1))) (Z0 m c s)
/-- x·W_r (step 2). -/
def R0 (c : Dev nD) (s : ℕ) : Vec F S256x2048 .f32 := k0_pay3 (iblk m c 2 (pt (s + 2))) (iblk m c 0 (pt (s + 2)))
/-- The reset gate (step 3). -/
def Rf (c : Dev nD) (s : ℕ) : Vec F S256x2048 .f32 :=
  k0_pay4 (iblk m c 3 (pt (s + 3))) (iblk m c 0 (pt (s + 3))) (iblk m c 1 (pt (s + 3))) (R0 m c s)
/-- x·W_h (step 4). -/
def Wf (c : Dev nD) (s : ℕ) : Vec F S256x2048 .f32 := k0_pay5 (iblk m c 2 (pt (s + 4))) (iblk m c 0 (pt (s + 4)))
/-- The new state of the tile's rows (step 5). -/
def Of (c : Dev nD) (s : ℕ) : Vec F S256x2048 .f32 :=
  k0_pay6 (iblk m c 3 (pt (s + 5))) (Rf m c s) (iblk m c 0 (pt (s + 5))) (iblk m c 1 (pt (s + 5))) (Wf m c s) (Zf m c s)

/-! ## The invariant before point `n` -/

def PhiAt (c : Dev nD) (n : ℕ) : sProp 𝕄 :=
  if n % 6 = 0 then
    iprop(iprop((∃ d, owns (c : Thread nD τ) scZ fullShare d) ∗ (∃ d, owns (c : Thread nD τ) scR fullShare d) ∗ (∃ d, owns (c : Thread nD τ) scW fullShare d)) ∗ (∃ r, prngReg c r))
  else if n % 6 = 1 then
    iprop(iprop(owns (c : Thread nD τ) scZ fullShare (Z0 m c (n - 1)) ∗ (∃ d, owns (c : Thread nD τ) scR fullShare d) ∗ (∃ d, owns (c : Thread nD τ) scW fullShare d)) ∗ (∃ r, prngReg c r))
  else if n % 6 = 2 then
    iprop(iprop(owns (c : Thread nD τ) scZ fullShare (Zf m c (n - 2)) ∗ (∃ d, owns (c : Thread nD τ) scR fullShare d) ∗ (∃ d, owns (c : Thread nD τ) scW fullShare d)) ∗ (∃ r, prngReg c r))
  else if n % 6 = 3 then
    iprop(iprop(owns (c : Thread nD τ) scZ fullShare (Zf m c (n - 3)) ∗ owns (c : Thread nD τ) scR fullShare (R0 m c (n - 3)) ∗ (∃ d, owns (c : Thread nD τ) scW fullShare d)) ∗ (∃ r, prngReg c r))
  else if n % 6 = 4 then
    iprop(iprop(owns (c : Thread nD τ) scZ fullShare (Zf m c (n - 4)) ∗ owns (c : Thread nD τ) scR fullShare (Rf m c (n - 4)) ∗ (∃ d, owns (c : Thread nD τ) scW fullShare d)) ∗ (∃ r, prngReg c r))
  else
    iprop(iprop(owns (c : Thread nD τ) scZ fullShare (Zf m c (n - 5)) ∗ owns (c : Thread nD τ) scR fullShare (Rf m c (n - 5)) ∗ owns (c : Thread nD τ) scW fullShare (Wf m c (n - 5))) ∗ (∃ r, prngReg c r))

theorem PhiAt_0 (c : Dev nD) (n : ℕ) (h : n % 6 = 0) : PhiAt m c n =
    iprop(iprop((∃ d, owns (c : Thread nD τ) scZ fullShare d) ∗ (∃ d, owns (c : Thread nD τ) scR fullShare d) ∗ (∃ d, owns (c : Thread nD τ) scW fullShare d)) ∗ (∃ r, prngReg c r)) := by
  unfold PhiAt; rw [if_pos h]
theorem PhiAt_1 (c : Dev nD) (n : ℕ) (h : n % 6 = 1) : PhiAt m c n =
    iprop(iprop(owns (c : Thread nD τ) scZ fullShare (Z0 m c (n - 1)) ∗ (∃ d, owns (c : Thread nD τ) scR fullShare d) ∗ (∃ d, owns (c : Thread nD τ) scW fullShare d)) ∗ (∃ r, prngReg c r)) := by
  unfold PhiAt; rw [if_neg (by omega), if_pos h]
theorem PhiAt_2 (c : Dev nD) (n : ℕ) (h : n % 6 = 2) : PhiAt m c n =
    iprop(iprop(owns (c : Thread nD τ) scZ fullShare (Zf m c (n - 2)) ∗ (∃ d, owns (c : Thread nD τ) scR fullShare d) ∗ (∃ d, owns (c : Thread nD τ) scW fullShare d)) ∗ (∃ r, prngReg c r)) := by
  unfold PhiAt; rw [if_neg (by omega), if_neg (by omega), if_pos h]
theorem PhiAt_3 (c : Dev nD) (n : ℕ) (h : n % 6 = 3) : PhiAt m c n =
    iprop(iprop(owns (c : Thread nD τ) scZ fullShare (Zf m c (n - 3)) ∗ owns (c : Thread nD τ) scR fullShare (R0 m c (n - 3)) ∗ (∃ d, owns (c : Thread nD τ) scW fullShare d)) ∗ (∃ r, prngReg c r)) := by
  unfold PhiAt; rw [if_neg (by omega), if_neg (by omega), if_neg (by omega), if_pos h]
theorem PhiAt_4 (c : Dev nD) (n : ℕ) (h : n % 6 = 4) : PhiAt m c n =
    iprop(iprop(owns (c : Thread nD τ) scZ fullShare (Zf m c (n - 4)) ∗ owns (c : Thread nD τ) scR fullShare (Rf m c (n - 4)) ∗ (∃ d, owns (c : Thread nD τ) scW fullShare d)) ∗ (∃ r, prngReg c r)) := by
  unfold PhiAt; rw [if_neg (by omega), if_neg (by omega), if_neg (by omega), if_neg (by omega), if_pos h]
theorem PhiAt_5 (c : Dev nD) (n : ℕ) (h : n % 6 = 5) : PhiAt m c n =
    iprop(iprop(owns (c : Thread nD τ) scZ fullShare (Zf m c (n - 5)) ∗ owns (c : Thread nD τ) scR fullShare (Rf m c (n - 5)) ∗ owns (c : Thread nD τ) scW fullShare (Wf m c (n - 5))) ∗ (∃ r, prngReg c r)) := by
  unfold PhiAt; rw [if_neg (by omega), if_neg (by omega), if_neg (by omega), if_neg (by omega), if_neg (by omega)]

/-! ## The pipeline's proof data -/

/-- The arrays as the region finds them; after the body at point `t` each input's buffer at its block and the result
    window's at the new state of the tile (read only at a tile's last step); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Of m c (t.val - 5)
  Φ t := PhiAt m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = Of m c (t.val - 5) := by dsimp only [dats]

theorem before_0 (c : Dev nD) (t : Fin cfg0.N) (d) : (dats m 0 c).before 0 t d = iblk m c 0 t :=
  before_w0 m (dats m 0 c) (A_eq m c 0) (after_0 m c) t d
theorem before_1 (c : Dev nD) (t : Fin cfg0.N) (d) : (dats m 0 c).before 1 t d = iblk m c 1 t :=
  before_w1 m (dats m 0 c) (A_eq m c 1) (after_1 m c) t d
theorem before_2 (c : Dev nD) (t : Fin cfg0.N) (d) : (dats m 0 c).before 2 t d = iblk m c 2 t :=
  before_w2 m (dats m 0 c) (A_eq m c 2) (after_2 m c) t d
theorem before_3 (c : Dev nD) (t : Fin cfg0.N) (d) : (dats m 0 c).before 3 t d = iblk m c 3 t :=
  before_w3 m (dats m 0 c) (A_eq m c 3) (after_3 m c) t d

end Cert.KernelIdeal.Hand

end
-- ==== Proof.KI.Blocks.lean ====
/-
  Where the fused GRU kernel's blocks sit in their arrays.  At grid point `t` (tile `t / 6`, step `t % 6`): the weight
  window holds matrix `t % 6` of the six stacked ones, the bias window vector `(t % 6) / 2` of the three stacked ones,
  the two batch windows and the result window rows `256·(t / 6) …` of their arrays.  Each block entry is the array's
  entry at the block's offset plus the position inside the block; every entry of the result array lies in the block of
  its tile's last step, the one point of the tile that writes back.
-/
import proofs.«173219_j59227599012282_2_alg».proof.Proof.KI.Data
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps, decided over the 192 grid points. -/
theorem idx_facts : ∀ t : Fin cfg0.N,
    win0_0.index t (0 : Fin 3) = t.val % 6 ∧ win0_0.index t (1 : Fin 3) = 0 ∧ win0_0.index t (2 : Fin 3) = 0
    ∧ win0_1.index t (0 : Fin 3) = t.val % 6 / 2 ∧ win0_1.index t (1 : Fin 3) = 0 ∧ win0_1.index t (2 : Fin 3) = 0
    ∧ win0_2.index t (0 : Fin 2) = t.val / 6 ∧ win0_2.index t (1 : Fin 2) = 0
    ∧ win0_3.index t (0 : Fin 2) = t.val / 6 ∧ win0_3.index t (1 : Fin 2) = 0
    ∧ win0_4.index t (0 : Fin 2) = t.val / 6 ∧ win0_4.index t (1 : Fin 2) = 0 :=
  (by decide +kernel : ∀ t : Fin grid0.N, _)

/-- The batch block of the input rows at point `t`: rows `256·(t/6) + p`. -/
theorem xblk_apply (c : Dev nD) (t : Fin cfg0.N) (p : Fin 256) (k : Fin 2048) (hP : 256 * (t.val / 6) + p.val < 8192) :
    iblk m c 2 t (ix2 p k) = V m c main_arg0 (ix2 ⟨256 * (t.val / 6) + p.val, hP⟩ k) := by
  obtain ⟨-, -, -, -, -, -, e0, e1, -⟩ := idx_facts t
  show V m c main_arg0 (((cfg0.win 2).blk t).view.emb (ix2 p k)) = _
  congr 1
  funext a; apply Fin.ext
  match a with
  | ⟨0, _⟩ => show win0_2.index t (0 : Fin 2) * 256 + 1 * p.val = 256 * (t.val / 6) + p.val; omega
  | ⟨1, _⟩ => show win0_2.index t (1 : Fin 2) * 2048 + 1 * k.val = k.val; omega

/-- The batch block of the previous state at point `t`. -/
theorem hblk_apply (c : Dev nD) (t : Fin cfg0.N) (p : Fin 256) (k : Fin 2048) (hP : 256 * (t.val / 6) + p.val < 8192) :
    iblk m c 3 t (ix2 p k) = V m c main_arg1 (ix2 ⟨256 * (t.val / 6) + p.val, hP⟩ k) := by
  obtain ⟨-, -, -, -, -, -, -, -, e0, e1, -⟩ := idx_facts t
  show V m c main_arg1 (((cfg0.win 3).blk t).view.emb (ix2 p k)) = _
  congr 1
  funext a; apply Fin.ext
  match a with
  | ⟨0, _⟩ => show win0_3.index t (0 : Fin 2) * 256 + 1 * p.val = 256 * (t.val / 6) + p.val; omega
  | ⟨1, _⟩ => show win0_3.index t (1 : Fin 2) * 2048 + 1 * k.val = k.val; omega

/-- The weight block at point `t`: matrix `t % 6` of the stack. -/
theorem wblk_apply (c : Dev nD) (t : Fin cfg0.N) (k e : Fin 2048) (hg : t.val % 6 < 6) :
    iblk m c 0 t (ix3 (0 : Fin 1) k e) = V m c main_v7 (ix3 ⟨t.val % 6, hg⟩ k e) := by
  obtain ⟨e0, e1, e2, -⟩ := idx_facts t
  show V m c main_v7 (((cfg0.win 0).blk t).view.emb (ix3 (0 : Fin 1) k e)) = _
  congr 1
  funext a; apply Fin.ext
  match a with
  | ⟨0, _⟩ => show win0_0.index t (0 : Fin 3) * 1 + 1 * 0 = t.val % 6; omega
  | ⟨1, _⟩ => show win0_0.index t (1 : Fin 3) * 2048 + 1 * k.val = k.val; omega
  | ⟨2, _⟩ => show win0_0.index t (2 : Fin 3) * 2048 + 1 * e.val = e.val; omega

/-- The bias block at point `t`: vector `(t % 6) / 2` of the stack. -/
theorem bblk_apply (c : Dev nD) (t : Fin cfg0.N) (e : Fin 2048) (hg : t.val % 6 / 2 < 3) :
    iblk m c 1 t (ix3 (0 : Fin 1) (0 : Fin 1) e) = V m c main_v12 (ix3 ⟨t.val % 6 / 2, hg⟩ (0 : Fin 1) e) := by
  obtain ⟨-, -, -, e0, e1, e2, -⟩ := idx_facts t
  show V m c main_v12 (((cfg0.win 1).blk t).view.emb (ix3 (0 : Fin 1) (0 : Fin 1) e)) = _
  congr 1
  funext a; apply Fin.ext
  match a with
  | ⟨0, _⟩ => show win0_1.index t (0 : Fin 3) * 1 + 1 * 0 = t.val % 6 / 2; omega
  | ⟨1, _⟩ => show win0_1.index t (1 : Fin 3) * 1 + 1 * 0 = 0; omega
  | ⟨2, _⟩ => show win0_1.index t (2 : Fin 3) * 2048 + 1 * e.val = e.val; omega

/-- An entry of the result array is in point `t`'s block iff each coordinate is in the block's range. -/
theorem mem_oblk (t : Fin cfg0.N) (i : S8192x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v13).slice (win0_4.rect t)).set ↔ _
  rw [View.set_slice_whole, Rect.mem_set_unit]
  exact Iff.rfl

/-- Every entry of the result array is in the block of its tile's last step, which is written back. -/
theorem ocover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  have htv : (pt (6 * ((i 0).val / 256) + 5)).val = 6 * ((i 0).val / 256) + 5 := by
    show (6 * ((i 0).val / 256) + 5) % 192 = _; omega
  obtain ⟨-, -, -, -, -, -, -, -, -, -, e0, e1⟩ := idx_facts (pt (6 * ((i 0).val / 256) + 5))
  refine ⟨pt (6 * ((i 0).val / 256) + 5), (flush0_4 _).mpr (by omega), ?_⟩
  rw [mem_oblk]
  intro a
  match a with
  | ⟨0, _⟩ =>
    show win0_4.index (pt (6 * ((i 0).val / 256) + 5)) (0 : Fin 2) * 256 ≤ (i 0).val ∧ (i 0).val < win0_4.index (pt (6 * ((i 0).val / 256) + 5)) (0 : Fin 2) * 256 + 256
    rw [e0, htv]; omega
  | ⟨1, _⟩ =>
    show win0_4.index (pt (6 * ((i 0).val / 256) + 5)) (1 : Fin 2) * 2048 ≤ (i 1).val ∧ (i 1).val < win0_4.index (pt (6 * ((i 0).val / 256) + 5)) (1 : Fin 2) * 2048 + 2048
    rw [e1]; omega

/-- The result block's entry `(p, e)` at point `t` is the array's entry `(256·(t/6) + p, e)`. -/
theorem oblk_emb (t : Fin cfg0.N) (p : Fin 256) (e : Fin 2048) (hP : 256 * (t.val / 6) + p.val < 8192) :
    ((cfg0.win 4).blk t).view.emb (ix2 p e) = ix2 ⟨256 * (t.val / 6) + p.val, hP⟩ e := by
  obtain ⟨-, -, -, -, -, -, -, -, -, -, e0, e1⟩ := idx_facts t
  funext a; apply Fin.ext
  match a with
  | ⟨0, _⟩ => show win0_4.index t (0 : Fin 2) * 256 + 1 * p.val = 256 * (t.val / 6) + p.val; omega
  | ⟨1, _⟩ => show win0_4.index t (1 : Fin 2) * 2048 + 1 * e.val = e.val; omega

/-! ## The same reads, with the array coordinate named and its value stated as an equation -/

theorem xblk_at (c : Dev nD) (t : Fin cfg0.N) (p : Fin 256) (k : Fin 2048) (P : Fin 8192) (hP : P.val = 256 * (t.val / 6) + p.val) :
    iblk m c 2 t (ix2 p k) = V m c main_arg0 (ix2 P k) := by
  have hlt : 256 * (t.val / 6) + p.val < 8192 := hP ▸ P.isLt
  rw [xblk_apply m c t p k hlt]
  exact congrArg (fun q => V m c main_arg0 (ix2 q k)) (Fin.ext hP.symm)

theorem hblk_at (c : Dev nD) (t : Fin cfg0.N) (p : Fin 256) (k : Fin 2048) (P : Fin 8192) (hP : P.val = 256 * (t.val / 6) + p.val) :
    iblk m c 3 t (ix2 p k) = V m c main_arg1 (ix2 P k) := by
  have hlt : 256 * (t.val / 6) + p.val < 8192 := hP ▸ P.isLt
  rw [hblk_apply m c t p k hlt]
  exact congrArg (fun q => V m c main_arg1 (ix2 q k)) (Fin.ext hP.symm)

theorem wblk_at (c : Dev nD) (t : Fin cfg0.N) (k e : Fin 2048) (g : Fin 6) (hg : g.val = t.val % 6) :
    iblk m c 0 t (ix3 (0 : Fin 1) k e) = V m c main_v7 (ix3 g k e) := by
  rw [wblk_apply m c t k e (hg ▸ g.isLt)]
  exact congrArg (fun q => V m c main_v7 (ix3 q k e)) (Fin.ext hg.symm)

theorem bblk_at (c : Dev nD) (t : Fin cfg0.N) (e : Fin 2048) (j : Fin 3) (hj : j.val = t.val % 6 / 2) :
    iblk m c 1 t (ix3 (0 : Fin 1) (0 : Fin 1) e) = V m c main_v12 (ix3 j (0 : Fin 1) e) := by
  rw [bblk_apply m c t e (hj ▸ j.isLt)]
  exact congrArg (fun q => V m c main_v12 (ix3 q (0 : Fin 1) e)) (Fin.ext hj.symm)

theorem oblk_emb_at (t : Fin cfg0.N) (p : Fin 256) (e : Fin 2048) (P : Fin 8192) (hP : P.val = 256 * (t.val / 6) + p.val) :
    ((cfg0.win 4).blk t).view.emb (ix2 p e) = ix2 P e := by
  have hlt : 256 * (t.val / 6) + p.val < 8192 := hP ▸ P.isLt
  rw [oblk_emb t p e hlt]
  exact congrArg (fun q => (ix2 q e : S8192x2048.Idx)) (Fin.ext hP.symm)

end Cert.KernelIdeal.Hand

end
-- ==== Proof.KI.Body.lean ====
/-
  The body obligation of the fused GRU kernel: at every grid point, from the invariant before the point and the staged
  blocks, the body runs — only the branch of the point's step is taken — to the invariant before the next point, the
  inputs left in place, and the result window either stored (a tile's last step) or handed back untouched.  Then the
  launch: the whole program runs to the end, every array of the pipeline at what the write-backs leave and every
  other buffer as the host lines left it; the eleven argument arrays end unchanged.
-/
import proofs.«173219_j59227599012282_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiAt m c (t.val + 1) from rfl, show (dats m 0 c).Φ t.castSucc = PhiAt m c t.val from rfl]
  have hN : t.val < 192 := lt_of_lt_of_eq t.isLt N192
  rw [show (dats m 0 c).leavesExact 0 t = owns (c : Thread nD τ) (ms0 t) fullShare ((dats m 0 c).after 0 t) from by
    unfold Dat.leavesExact; rw [live_w0 t], after_0]
  rw [show (dats m 0 c).leavesExact 1 t = owns (c : Thread nD τ) (ms1 t) fullShare ((dats m 0 c).after 1 t) from by
    unfold Dat.leavesExact; rw [live_w1 t], after_1]
  rw [show (dats m 0 c).leavesExact 2 t = owns (c : Thread nD τ) (ms2 t) fullShare ((dats m 0 c).after 2 t) from by
    unfold Dat.leavesExact; rw [live_w2 t], after_2]
  rw [show (dats m 0 c).leavesExact 3 t = owns (c : Thread nD τ) (ms3 t) fullShare ((dats m 0 c).after 3 t) from by
    unfold Dat.leavesExact; rw [live_w3 t], after_3]
  rcases (show t.val % 6 = 0 ∨ t.val % 6 = 1 ∨ t.val % 6 = 2 ∨ t.val % 6 = 3 ∨ t.val % 6 = 4 ∨ t.val % 6 = 5 from by omega) with hg | hg | hg | hg | hg | hg
  · -- step 0 of the tile
    have hq0 : cond0 (grid0.coords t) := (hcond0 t).mpr hg
    have hq1 : ¬cond1 (grid0.coords t) := fun hh => by have := (hcond1 t).mp hh; omega
    have hq2 : ¬cond2 (grid0.coords t) := fun hh => by have := (hcond2 t).mp hh; omega
    have hq3 : ¬cond3 (grid0.coords t) := fun hh => by have := (hcond3 t).mp hh; omega
    have hq4 : ¬cond4 (grid0.coords t) := fun hh => by have := (hcond4 t).mp hh; omega
    have hq5 : ¬cond5 (grid0.coords t) := fun hh => by have := (hcond5 t).mp hh; omega
    rw [Dat.leavesExact_idle (dats m 0 c) 4 t (idle_w4 t hq5) (noflush_w4 t hq5)]
    rw [PhiAt_0 m c t.val hg, PhiAt_1 m c (t.val + 1) (by omega)]
    rw [show Z0 m c (t.val + 1 - 1) = k0_pay1 (iblk m c 2 t) (iblk m c 0 t) from by
      unfold Z0; rw [pt_eq (t.val + 1 - 1) t (by omega)]]
    iintro ⟨⟨⟨⟨%z, HZ⟩, ⟨%r, HR⟩, ⟨%u, HW⟩⟩, Hg⟩, Ho, ⟨%d0, H0⟩, ⟨%d1, H1⟩, ⟨%d2, H2⟩, ⟨%d3, H3⟩, ⟨%d4, H4⟩⟩
    iapply (run_g0 c (grid0.coords t) _ _ _ _ _ _ _ _ _ _ _ _ _ _ _ _ hq0 hq1 hq2 hq3 hq4 hq5 (iblk m c 0 t) (iblk m c 1 t) (iblk m c 2 t) (iblk m c 3 t) _ z r u Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexact HZ
        isplitl [HR]; · iexists _; iexact HR
        iexists _; iexact HW
      iexact Hg
    isplitl [Ho]; · iexact Ho
    isplitl [H0]; · iexact H0
    isplitl [H1]; · iexact H1
    isplitl [H2]; · iexact H2
    isplitl [H3]; · iexact H3
    iexists _; iexact H4
  · -- step 1 of the tile
    have hq0 : ¬cond0 (grid0.coords t) := fun hh => by have := (hcond0 t).mp hh; omega
    have hq1 : cond1 (grid0.coords t) := (hcond1 t).mpr hg
    have hq2 : ¬cond2 (grid0.coords t) := fun hh => by have := (hcond2 t).mp hh; omega
    have hq3 : ¬cond3 (grid0.coords t) := fun hh => by have := (hcond3 t).mp hh; omega
    have hq4 : ¬cond4 (grid0.coords t) := fun hh => by have := (hcond4 t).mp hh; omega
    have hq5 : ¬cond5 (grid0.coords t) := fun hh => by have := (hcond5 t).mp hh; omega
    rw [Dat.leavesExact_idle (dats m 0 c) 4 t (idle_w4 t hq5) (noflush_w4 t hq5)]
    rw [PhiAt_1 m c t.val hg, PhiAt_2 m c (t.val + 1) (by omega)]
    rw [show Zf m c (t.val + 1 - 2) = k0_pay2 (iblk m c 3 t) (iblk m c 0 t) (iblk m c 1 t) (Z0 m c (t.val - 1)) from by
      unfold Zf; rw [show t.val + 1 - 2 = t.val - 1 from by omega, pt_eq (t.val - 1 + 1) t (by omega)]]
    iintro ⟨⟨⟨HZ, ⟨%r, HR⟩, ⟨%u, HW⟩⟩, Hg⟩, Ho, ⟨%d0, H0⟩, ⟨%d1, H1⟩, ⟨%d2, H2⟩, ⟨%d3, H3⟩, ⟨%d4, H4⟩⟩
    iapply (run_g1 c (grid0.coords t) _ _ _ _ _ _ _ _ _ _ _ _ _ _ _ _ hq0 hq1 hq2 hq3 hq4 hq5 (iblk m c 0 t) (iblk m c 1 t) (iblk m c 2 t) (iblk m c 3 t) _ _ r u Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexact HZ
        isplitl [HR]; · iexists _; iexact HR
        iexists _; iexact HW
      iexact Hg
    isplitl [Ho]; · iexact Ho
    isplitl [H0]; · iexact H0
    isplitl [H1]; · iexact H1
    isplitl [H2]; · iexact H2
    isplitl [H3]; · iexact H3
    iexists _; iexact H4
  · -- step 2 of the tile
    have hq0 : ¬cond0 (grid0.coords t) := fun hh => by have := (hcond0 t).mp hh; omega
    have hq1 : ¬cond1 (grid0.coords t) := fun hh => by have := (hcond1 t).mp hh; omega
    have hq2 : cond2 (grid0.coords t) := (hcond2 t).mpr hg
    have hq3 : ¬cond3 (grid0.coords t) := fun hh => by have := (hcond3 t).mp hh; omega
    have hq4 : ¬cond4 (grid0.coords t) := fun hh => by have := (hcond4 t).mp hh; omega
    have hq5 : ¬cond5 (grid0.coords t) := fun hh => by have := (hcond5 t).mp hh; omega
    rw [Dat.leavesExact_idle (dats m 0 c) 4 t (idle_w4 t hq5) (noflush_w4 t hq5)]
    rw [PhiAt_2 m c t.val hg, PhiAt_3 m c (t.val + 1) (by omega)]
    rw [show t.val + 1 - 3 = t.val - 2 from by omega]
    rw [show R0 m c (t.val - 2) = k0_pay3 (iblk m c 2 t) (iblk m c 0 t) from by
      unfold R0; rw [pt_eq (t.val - 2 + 2) t (by omega)]]
    iintro ⟨⟨⟨HZ, ⟨%r, HR⟩, ⟨%u, HW⟩⟩, Hg⟩, Ho, ⟨%d0, H0⟩, ⟨%d1, H1⟩, ⟨%d2, H2⟩, ⟨%d3, H3⟩, ⟨%d4, H4⟩⟩
    iapply (run_g2 c (grid0.coords t) _ _ _ _ _ _ _ _ _ _ _ _ _ _ _ _ hq0 hq1 hq2 hq3 hq4 hq5 (iblk m c 0 t) (iblk m c 1 t) (iblk m c 2 t) (iblk m c 3 t) _ _ r u Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexact HZ
        isplitl [HR]; · iexact HR
        iexists _; iexact HW
      iexact Hg
    isplitl [Ho]; · iexact Ho
    isplitl [H0]; · iexact H0
    isplitl [H1]; · iexact H1
    isplitl [H2]; · iexact H2
    isplitl [H3]; · iexact H3
    iexists _; iexact H4
  · -- step 3 of the tile
    have hq0 : ¬cond0 (grid0.coords t) := fun hh => by have := (hcond0 t).mp hh; omega
    have hq1 : ¬cond1 (grid0.coords t) := fun hh => by have := (hcond1 t).mp hh; omega
    have hq2 : ¬cond2 (grid0.coords t) := fun hh => by have := (hcond2 t).mp hh; omega
    have hq3 : cond3 (grid0.coords t) := (hcond3 t).mpr hg
    have hq4 : ¬cond4 (grid0.coords t) := fun hh => by have := (hcond4 t).mp hh; omega
    have hq5 : ¬cond5 (grid0.coords t) := fun hh => by have := (hcond5 t).mp hh; omega
    rw [Dat.leavesExact_idle (dats m 0 c) 4 t (idle_w4 t hq5) (noflush_w4 t hq5)]
    rw [PhiAt_3 m c t.val hg, PhiAt_4 m c (t.val + 1) (by omega)]
    rw [show t.val + 1 - 4 = t.val - 3 from by omega]
    rw [show Rf m c (t.val - 3) = k0_pay4 (iblk m c 3 t) (iblk m c 0 t) (iblk m c 1 t) (R0 m c (t.val - 3)) from by
      unfold Rf; rw [pt_eq (t.val - 3 + 3) t (by omega)]]
    iintro ⟨⟨⟨HZ, HR, ⟨%u, HW⟩⟩, Hg⟩, Ho, ⟨%d0, H0⟩, ⟨%d1, H1⟩, ⟨%d2, H2⟩, ⟨%d3, H3⟩, ⟨%d4, H4⟩⟩
    iapply (run_g3 c (grid0.coords t) _ _ _ _ _ _ _ _ _ _ _ _ _ _ _ _ hq0 hq1 hq2 hq3 hq4 hq5 (iblk m c 0 t) (iblk m c 1 t) (iblk m c 2 t) (iblk m c 3 t) _ _ _ u Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexact HZ
        isplitl [HR]; · iexact HR
        iexists _; iexact HW
      iexact Hg
    isplitl [Ho]; · iexact Ho
    isplitl [H0]; · iexact H0
    isplitl [H1]; · iexact H1
    isplitl [H2]; · iexact H2
    isplitl [H3]; · iexact H3
    iexists _; iexact H4
  · -- step 4 of the tile
    have hq0 : ¬cond0 (grid0.coords t) := fun hh => by have := (hcond0 t).mp hh; omega
    have hq1 : ¬cond1 (grid0.coords t) := fun hh => by have := (hcond1 t).mp hh; omega
    have hq2 : ¬cond2 (grid0.coords t) := fun hh => by have := (hcond2 t).mp hh; omega
    have hq3 : ¬cond3 (grid0.coords t) := fun hh => by have := (hcond3 t).mp hh; omega
    have hq4 : cond4 (grid0.coords t) := (hcond4 t).mpr hg
    have hq5 : ¬cond5 (grid0.coords t) := fun hh => by have := (hcond5 t).mp hh; omega
    rw [Dat.leavesExact_idle (dats m 0 c) 4 t (idle_w4 t hq5) (noflush_w4 t hq5)]
    rw [PhiAt_4 m c t.val hg, PhiAt_5 m c (t.val + 1) (by omega)]
    rw [show t.val + 1 - 5 = t.val - 4 from by omega]
    rw [show Wf m c (t.val - 4) = k0_pay5 (iblk m c 2 t) (iblk m c 0 t) from by
      unfold Wf; rw [pt_eq (t.val - 4 + 4) t (by omega)]]
    iintro ⟨⟨⟨HZ, HR, ⟨%u, HW⟩⟩, Hg⟩, Ho, ⟨%d0, H0⟩, ⟨%d1, H1⟩, ⟨%d2, H2⟩, ⟨%d3, H3⟩, ⟨%d4, H4⟩⟩
    iapply (run_g4 c (grid0.coords t) _ _ _ _ _ _ _ _ _ _ _ _ _ _ _ _ hq0 hq1 hq2 hq3 hq4 hq5 (iblk m c 0 t) (iblk m c 1 t) (iblk m c 2 t) (iblk m c 3 t) _ _ _ u Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexact HZ
        isplitl [HR]; · iexact HR
        iexact HW
      iexact Hg
    isplitl [Ho]; · iexact Ho
    isplitl [H0]; · iexact H0
    isplitl [H1]; · iexact H1
    isplitl [H2]; · iexact H2
    isplitl [H3]; · iexact H3
    iexists _; iexact H4
  · -- step 5 of the tile
    have hq0 : ¬cond0 (grid0.coords t) := fun hh => by have := (hcond0 t).mp hh; omega
    have hq1 : ¬cond1 (grid0.coords t) := fun hh => by have := (hcond1 t).mp hh; omega
    have hq2 : ¬cond2 (grid0.coords t) := fun hh => by have := (hcond2 t).mp hh; omega
    have hq3 : ¬cond3 (grid0.coords t) := fun hh => by have := (hcond3 t).mp hh; omega
    have hq4 : ¬cond4 (grid0.coords t) := fun hh => by have := (hcond4 t).mp hh; omega
    have hq5 : cond5 (grid0.coords t) := (hcond5 t).mpr hg
    rw [show (dats m 0 c).leavesExact 4 t = owns (c : Thread nD τ) (ms4 t) fullShare ((dats m 0 c).after 4 t) from by
      unfold Dat.leavesExact; rw [live_w4 t hq5], after_4]
    rw [PhiAt_5 m c t.val hg, PhiAt_0 m c (t.val + 1) (by omega)]
    rw [show Of m c (t.val - 5) = k0_pay6 (iblk m c 3 t) (Rf m c (t.val - 5)) (iblk m c 0 t) (iblk m c 1 t) (Wf m c (t.val - 5)) (Zf m c (t.val - 5)) from by
      unfold Of; rw [pt_eq (t.val - 5 + 5) t (by omega)]]
    iintro ⟨⟨⟨HZ, HR, HW⟩, Hg⟩, Ho, ⟨%d0, H0⟩, ⟨%d1, H1⟩, ⟨%d2, H2⟩, ⟨%d3, H3⟩, ⟨%d4, H4⟩⟩
    iapply (run_g5 c (grid0.coords t) _ _ _ _ _ _ _ _ _ _ _ _ _ _ _ _ hq0 hq1 hq2 hq3 hq4 hq5 (iblk m c 0 t) (iblk m c 1 t) (iblk m c 2 t) (iblk m c 3 t) _ _ _ _ Set.univ _)
    isplitl [H0]; · iexact H0
    isplitl [H1]; · iexact H1
    isplitl [H2]; · iexact H2
    isplitl [H3]; · iexact H3
    isplitl [H4]; · iexact H4
    isplitl [HZ]; · iexact HZ
    isplitl [HR]; · iexact HR
    isplitl [HW]; · iexact HW
    iintro ⟨H0, H1, H2, H3, H4, HZ, HR, HW⟩
    isplitl [HZ HR HW Hg]
    · isplitr [Hg]
      · isplitl [HZ]; · iexists _; iexact HZ
        isplitl [HR]; · iexists _; iexact HR
        iexists _; iexact HW
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: all three accumulators at anything. -/
theorem hin (c : Dev nD) : Pipeline.ΦA spec0 c ⊢ (dats m 0 c).Φ 0 := by
  rw [show (dats m 0 c).Φ 0 = PhiAt m c 0 from rfl, PhiAt_0 m c 0 rfl, PhiA_eq]
  try exact Idealize.SL.BI.Entails.refl _

/-- After the last point (the end of a tile) the invariant is the launch's again. -/
theorem hout (c : Dev nD) : (dats m 0 c).Φ (Fin.last cfg0.N) ⊢ Pipeline.ΦA spec0 c := by
  rw [show (dats m 0 c).Φ (Fin.last cfg0.N) = PhiAt m c cfg0.N from rfl, PhiAt_0 m c cfg0.N (by rw [N192]), PhiA_eq]
  try exact Idealize.SL.BI.Entails.refl _

set_option backward.isDefEq.respectTransparency.types false in
/-- Every weakly fair execution of @main terminates, nothing faulting; every array of the pipeline ends at what the
    write-backs leave (the proof data's `arrAt`), every other unscoped buffer as the host lines left it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.KI.Frame.lean ====
/-
  The frame of the fused GRU program: it runs to the end, nothing faults, and its eleven argument arrays end as they
  began.  The two batch arrays are inputs of the pipeline (an input's array is never written); the nine weight and
  bias arrays bypass the region (the host lines read them and write only their own results).
-/
import proofs.«173219_j59227599012282_2_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line writes an argument array. -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl
theorem V_arg6 (c : Dev nD) : V m c main_arg6 = m ((c : Thread nD τ).loc main_arg6) := rfl
theorem V_arg7 (c : Dev nD) : V m c main_arg7 = m ((c : Thread nD τ).loc main_arg7) := rfl
theorem V_arg8 (c : Dev nD) : V m c main_arg8 = m ((c : Thread nD τ).loc main_arg8) := rfl
theorem V_arg9 (c : Dev nD) : V m c main_arg9 = m ((c : Thread nD τ).loc main_arg9) := rfl
theorem V_arg10 (c : Dev nD) : V m c main_arg10 = m ((c : Thread nD τ).loc main_arg10) := rfl

/-- The argument arrays after any run that ends in the frame run's post. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(((h c).1 2).trans (((dats m 0 c).arrAt_in 2 rfl _).trans ((A_eq m c 2).trans (V_arg0 m c)))),
   (((h c).1 3).trans (((dats m 0 c).arrAt_in 3 rfl _).trans ((A_eq m c 3).trans (V_arg1 m c)))),
   ((h c).2 main_arg2 (Pipeline.mem_restRefs_of main_arg2 (by decide) (by decide))).trans (V_arg2 m c),
   ((h c).2 main_arg3 (Pipeline.mem_restRefs_of main_arg3 (by decide) (by decide))).trans (V_arg3 m c),
   ((h c).2 main_arg4 (Pipeline.mem_restRefs_of main_arg4 (by decide) (by decide))).trans (V_arg4 m c),
   ((h c).2 main_arg5 (Pipeline.mem_restRefs_of main_arg5 (by decide) (by decide))).trans (V_arg5 m c),
   ((h c).2 main_arg6 (Pipeline.mem_restRefs_of main_arg6 (by decide) (by decide))).trans (V_arg6 m c),
   ((h c).2 main_arg7 (Pipeline.mem_restRefs_of main_arg7 (by decide) (by decide))).trans (V_arg7 m c),
   ((h c).2 main_arg8 (Pipeline.mem_restRefs_of main_arg8 (by decide) (by decide))).trans (V_arg8 m c),
   ((h c).2 main_arg9 (Pipeline.mem_restRefs_of main_arg9 (by decide) (by decide))).trans (V_arg9 m c),
   ((h c).2 main_arg10 (Pipeline.mem_restRefs_of main_arg10 (by decide) (by decide))).trans (V_arg10 m c)⟩

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_args m r h c) (run_main m ρ)

end Cert.KernelIdeal.Hand

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.LibCols.lean ====
/-
  Column operations on rank-2 arrays read at an index written by its coordinates, over abstract extents.

  * a slice of columns `[off, off + C')` of an `[R, C]` array reads, at `(r, k)`, the array at `(r, off + k)`;
  * three one-column arrays `[R, 1]` joined along the second axis read, at `(r, i)`, the `i`-th of them at `(r, 0)`;
  * a bias vector of `c` entries cast to one row and repeated down `a` rows reads, at `(p, j)`, the vector at `j`.
-/
import Idealize.ShloMosaic.PureOps.Ideal
import Idealize.ShloMosaic.Lib.ValueIdx
import Idealize.ShloMosaic.Lib.Pipeline.Value

noncomputable section

namespace Cert.LibCols

open Idealize.ShloMosaic Idealize.ShloMosaic.ValueIdx

variable {α : Type}

/-- A slice of the columns from `off` on, all rows kept, at `(r, k)`: the operand at `(r, off + k)`. -/
theorem slice_cols_apply {R C C' : ℕ} (off : ℕ) (x : (⟨2, ![R, C]⟩ : Shape).Idx → α)
    (h : (⟨2, ![R, C]⟩ : Shape).Slices ![0, off] ⟨2, ![R, C']⟩) (r : Fin R) (k : Fin C') (hlt : off + k.val < C) :
    extractStridedSlice ⟨2, ![R, C']⟩ ![0, off] x h (ix2 r k) = x (ix2 r ⟨off + k.val, hlt⟩) :=
  extractStridedSlice_apply ![0, off] x h (ix2 r k) (ix2 r ⟨off + k.val, hlt⟩) (fun a => by
    match a with
    | ⟨0, _⟩ => exact (Nat.zero_add _).symm
    | ⟨1, _⟩ => rfl)

/-- A slice of the first `C'` columns, all rows kept, at `(r, k)`: the operand at `(r, k)`. -/
theorem slice_cols_zero_apply {R C C' : ℕ} (x : (⟨2, ![R, C]⟩ : Shape).Idx → α)
    (h : (⟨2, ![R, C]⟩ : Shape).Slices ![0, 0] ⟨2, ![R, C']⟩) (r : Fin R) (k : Fin C') (hlt : k.val < C) :
    extractStridedSlice ⟨2, ![R, C']⟩ ![0, 0] x h (ix2 r k) = x (ix2 r ⟨k.val, hlt⟩) :=
  extractStridedSlice_apply ![0, 0] x h (ix2 r k) (ix2 r ⟨k.val, hlt⟩) (fun a => by
    match a with
    | ⟨0, _⟩ => exact (Nat.zero_add _).symm
    | ⟨1, _⟩ => exact (Nat.zero_add _).symm)

/-- Three one-column arrays joined along the second axis, at `(r, i)`: the `i`-th array's entry of row `r`. -/
theorem concat3_unit_cols_apply {R : ℕ} (a b c : (⟨2, ![R, 1]⟩ : Shape).Idx → α)
    (h : Shape.Concatenates [(⟨2, ![R, 1]⟩ : Shape), ⟨2, ![R, 1]⟩, ⟨2, ![R, 1]⟩] ⟨2, ![R, 3]⟩ (1 : Fin 2)) (r : Fin R) (i : Fin 3) :
    concatenate ⟨2, ![R, 3]⟩ (1 : Fin 2) [⟨⟨2, ![R, 1]⟩, a⟩, ⟨⟨2, ![R, 1]⟩, b⟩, ⟨⟨2, ![R, 1]⟩, c⟩] h (ix2 r i)
      = (![a, b, c] : Fin 3 → (⟨2, ![R, 1]⟩ : Shape).Idx → α) i (ix2 r (0 : Fin 1)) := by
  have side : ∀ d : Fin 2, d ≠ (1 : Fin 2) → ((ix2 r (0 : Fin 1) : (⟨2, ![R, 1]⟩ : Shape).Idx) d).val = ((ix2 r i : (⟨2, ![R, 3]⟩ : Shape).Idx) d).val := fun d hd => by
    match d with
    | ⟨0, _⟩ => rfl
    | ⟨1, _⟩ => exact absurd rfl hd
  have h' : Shape.Concatenates (([⟨⟨2, ![R, 1]⟩, a⟩, ⟨⟨2, ![R, 1]⟩, b⟩, ⟨⟨2, ![R, 1]⟩, c⟩] : List ((s : Shape) × (s.Idx → α))).map (·.1)) (⟨2, ![R, 3]⟩ : Shape) (1 : Fin 2) := h
  match i with
  | ⟨0, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 0 (by show 0 < 3; omega) ⟨2, ![R, 1]⟩ a rfl rfl 0 rfl (ix2 r (0 : Fin 1)) side rfl
  | ⟨1, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 1 (by show 1 < 3; omega) ⟨2, ![R, 1]⟩ b rfl rfl 1 rfl (ix2 r (0 : Fin 1)) side rfl
  | ⟨2, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 2 (by show 2 < 3; omega) ⟨2, ![R, 1]⟩ c rfl rfl 2 rfl (ix2 r (0 : Fin 1)) side rfl

/-- A vector of `c` entries cast to the one row `[1, c]` and repeated down `a` rows, at `(p, j)`: the vector at `j`. -/
theorem bias_rows_apply {a c : ℕ} (x : (⟨1, ![c]⟩ : Shape).Idx → α) (h : (⟨1, ![c]⟩ : Shape).ShapeCasts ⟨2, ![1, c]⟩)
    (h' : (⟨2, ![1, c]⟩ : Shape).Broadcasts ⟨2, ![a, c]⟩) (p : Fin a) (j : Fin c) :
    broadcastTo ⟨2, ![a, c]⟩ (shapeCast ⟨2, ![1, c]⟩ x h) h' (ix2 p j) = x (ix1 j) :=
  (broadcastTo_apply _ h' (ix2 p j) (ix2 (0 : Fin 1) j) (fun d => match d with
    | ⟨0, _⟩ => by show (0 : ℕ) = if (1 : ℕ) = 1 then 0 else p.val; rw [if_pos rfl]
    | ⟨1, _⟩ => by show j.val = if c = 1 then 0 else j.val; have := j.isLt; split <;> omega)).trans
  (shapeCast_apply x h _ _ (by
    rw [Shape.rowMajor_val_two, Shape.rowMajor_val_one]
    show j.val = (0 : ℕ) * c + j.val
    rw [Nat.zero_mul, Nat.zero_add]))

/-- A column `[a, 1]` repeated across `b` columns, at `(p, k)`: row `p`'s one entry. -/
theorem col_bcast_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibCols

end
-- ==== Proof.KI.Pay.lean ====
/-
  The kernel body's six stored values read at an entry, on the extended reals.

  Every matrix product of the body is a product of a [256, 2048] block of rows, narrowed to the 16-bit format, by a
  [1, 2048, 2048] weight block with its unit axis dropped, into a zero accumulator.  On the extended reals the
  narrowing is the identity, the zero word denotes 0, and the product at (y, e) is the plain sum
  Σ_k a[y,k]·w[0,k,e].  A bias block [1, 1, 2048] is flattened, given a unit row axis and repeated down the 256 rows:
  at (y, e) it is the block at (0, 0, e).  The rest is one operation per entry.
-/
import proofs.«173219_j59227599012282_2_alg».proof.Proof.Gen.KernelIdeal.Skeleton
import proofs.«173219_j59227599012282_2_alg».proof.Proof.LibDot
import proofs.«173219_j59227599012282_2_alg».proof.Proof.LibCols
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## Where the product's dimension numbers send an output index and a contraction index -/

/-- The left operand's row is the output's row. -/
theorem lhs0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
/-- The left operand's column is the contracted coordinate. -/
theorem lhs1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
/-- The right operand's row is the contracted coordinate. -/
theorem rhs0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
/-- The right operand's column is the output's column. -/
theorem rhs1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-! ## The product and the bias at an entry -/

/-- Rows narrowed to the 16-bit format, against a weight block with its unit axis dropped, into the zero
    accumulator: the plain sum over the 2048 contracted coordinates. -/
theorem mm_apply (a : Vec Ideal S256x2048 .f32) (w : Vec Ideal S1x2048x2048 .bf16) (y : Fin 256) (e : Fin 2048) :
    matmul (φ₁ := .bf16) (φ₂ := .bf16) dot_S256x2048_S2048x2048_S256x2048_1_0_0_1_n_n none (truncf .bf16 a bitsLt_bf16_f32) (shapeCast S2048x2048 w shapeCasts_S1x2048x2048_S2048x2048) (constant (F := Ideal) S256x2048 .f32 0x00000000#32) (ix2 y e)
      = ∑ k : Fin 2048, a (ix2 y k) * w (ix3 (0 : Fin 1) k e) := by
  refine (LibDot.matmul_zero_apply dot_S256x2048_S2048x2048_S256x2048_1_0_0_1_n_n rfl rfl lhs0 lhs1 rhs0 rhs1 none
    (truncf .bf16 a bitsLt_bf16_f32) (shapeCast S2048x2048 w shapeCasts_S1x2048x2048_S2048x2048) y e).trans ?_
  refine Finset.sum_congr rfl fun k _ => ?_
  exact congrArg (a (ix2 y k) * ·) (shapeCast_1ab_ab_apply w shapeCasts_S1x2048x2048_S2048x2048 k e)

/-- A bias block flattened, given a unit row axis and repeated down the rows: at (y, e) the block at (0, 0, e). -/
theorem bias_apply (bi : Vec Ideal S1x1x2048 .f32) (y : Fin 256) (e : Fin 2048) :
    broadcastTo S256x2048 (shapeCast S1x2048 (shapeCast S2048 bi shapeCasts_S1x1x2048_S2048) shapeCasts_S2048_S1x2048) broadcasts_S1x2048_S256x2048 (ix2 y e)
      = bi (ix3 (0 : Fin 1) (0 : Fin 1) e) :=
  (LibCols.bias_rows_apply (shapeCast S2048 bi shapeCasts_S1x1x2048_S2048) shapeCasts_S2048_S1x2048
    broadcasts_S1x2048_S256x2048 y e).trans
  (shapeCast_apply bi shapeCasts_S1x1x2048_S2048 (ix1 e) (ix3 (0 : Fin 1) (0 : Fin 1) e) (by
    rw [Shape.rowMajor_val_three, Shape.rowMajor_val_one]
    show (0 * 1 + 0) * 2048 + e.val = e.val
    omega))

/-! ## The three projections of the input rows -/

/-- The block's rows against the weight block. -/
theorem pay1_apply (x : Vec Ideal S256x2048 .f32) (w : Vec Ideal S1x2048x2048 .bf16) (y : Fin 256) (e : Fin 2048) :
    k0_pay1 (F := Ideal) x w (ix2 y e) = ∑ k : Fin 2048, x (ix2 y k) * w (ix3 (0 : Fin 1) k e) := by
  unfold k0_pay1
  refine (congrFun (shapeCast_self _ shapeCasts_S256x2048_S256x2048) (ix2 y e)).trans ?_
  exact mm_apply x w y e

/-- The block's rows against the weight block. -/
theorem pay3_apply (x : Vec Ideal S256x2048 .f32) (w : Vec Ideal S1x2048x2048 .bf16) (y : Fin 256) (e : Fin 2048) :
    k0_pay3 (F := Ideal) x w (ix2 y e) = ∑ k : Fin 2048, x (ix2 y k) * w (ix3 (0 : Fin 1) k e) := by
  unfold k0_pay3
  refine (congrFun (shapeCast_self _ shapeCasts_S256x2048_S256x2048) (ix2 y e)).trans ?_
  exact mm_apply x w y e

/-- The block's rows against the weight block. -/
theorem pay5_apply (x : Vec Ideal S256x2048 .f32) (w : Vec Ideal S1x2048x2048 .bf16) (y : Fin 256) (e : Fin 2048) :
    k0_pay5 (F := Ideal) x w (ix2 y e) = ∑ k : Fin 2048, x (ix2 y k) * w (ix3 (0 : Fin 1) k e) := by
  unfold k0_pay5
  refine (congrFun (shapeCast_self _ shapeCasts_S256x2048_S256x2048) (ix2 y e)).trans ?_
  exact mm_apply x w y e

/-! ## The two gates -/

/-- A gate of the block: the logistic function of the accumulated projection, the rows' projection and the bias. -/
theorem pay2_apply (h : Vec Ideal S256x2048 .f32) (w : Vec Ideal S1x2048x2048 .bf16) (bi : Vec Ideal S1x1x2048 .f32)
    (z : Vec Ideal S256x2048 .f32) (y : Fin 256) (e : Fin 2048) :
    k0_pay2 (F := Ideal) h w bi z (ix2 y e)
      = Ideal.logistic ((z (ix2 y e) + ∑ k : Fin 2048, h (ix2 y k) * w (ix3 (0 : Fin 1) k e)) + bi (ix3 (0 : Fin 1) (0 : Fin 1) e)) := by
  unfold k0_pay2
  refine (congrFun (shapeCast_self _ shapeCasts_S256x2048_S256x2048) (ix2 y e)).trans ?_
  show Ideal.logistic ((z (ix2 y e) + matmul (φ₁ := .bf16) (φ₂ := .bf16) dot_S256x2048_S2048x2048_S256x2048_1_0_0_1_n_n none (truncf .bf16 h bitsLt_bf16_f32) (shapeCast S2048x2048 w shapeCasts_S1x2048x2048_S2048x2048) (constant (F := Ideal) S256x2048 .f32 0x00000000#32) (ix2 y e))
      + broadcastTo S256x2048 (shapeCast S1x2048 (shapeCast S2048 bi shapeCasts_S1x1x2048_S2048) shapeCasts_S2048_S1x2048) broadcasts_S1x2048_S256x2048 (ix2 y e)) = _
  exact congrArg Ideal.logistic (congrArg₂ (· + ·) (congrArg (z (ix2 y e) + ·) (mm_apply h w y e)) (bias_apply bi y e))

/-- A gate of the block: the logistic function of the accumulated projection, the rows' projection and the bias. -/
theorem pay4_apply (h : Vec Ideal S256x2048 .f32) (w : Vec Ideal S1x2048x2048 .bf16) (bi : Vec Ideal S1x1x2048 .f32)
    (z : Vec Ideal S256x2048 .f32) (y : Fin 256) (e : Fin 2048) :
    k0_pay4 (F := Ideal) h w bi z (ix2 y e)
      = Ideal.logistic ((z (ix2 y e) + ∑ k : Fin 2048, h (ix2 y k) * w (ix3 (0 : Fin 1) k e)) + bi (ix3 (0 : Fin 1) (0 : Fin 1) e)) := by
  unfold k0_pay4
  refine (congrFun (shapeCast_self _ shapeCasts_S256x2048_S256x2048) (ix2 y e)).trans ?_
  show Ideal.logistic ((z (ix2 y e) + matmul (φ₁ := .bf16) (φ₂ := .bf16) dot_S256x2048_S2048x2048_S256x2048_1_0_0_1_n_n none (truncf .bf16 h bitsLt_bf16_f32) (shapeCast S2048x2048 w shapeCasts_S1x2048x2048_S2048x2048) (constant (F := Ideal) S256x2048 .f32 0x00000000#32) (ix2 y e))
      + broadcastTo S256x2048 (shapeCast S1x2048 (shapeCast S2048 bi shapeCasts_S1x1x2048_S2048) shapeCasts_S2048_S1x2048) broadcasts_S1x2048_S256x2048 (ix2 y e)) = _
  exact congrArg Ideal.logistic (congrArg₂ (· + ·) (congrArg (z (ix2 y e) + ·) (mm_apply h w y e)) (bias_apply bi y e))

/-! ## The new state -/

/-- The new state of the block: the update gate mixes the previous state with the candidate, whose projection takes
    the previous state scaled by the reset gate. -/
theorem pay6_apply (h r : Vec Ideal S256x2048 .f32) (w : Vec Ideal S1x2048x2048 .bf16) (bi : Vec Ideal S1x1x2048 .f32)
    (u z : Vec Ideal S256x2048 .f32) (y : Fin 256) (e : Fin 2048) :
    k0_pay6 (F := Ideal) h r w bi u z (ix2 y e)
      = (Ideal.ofBits .f32 0x3F800000#32 - z (ix2 y e)) * h (ix2 y e)
        + z (ix2 y e) * Ideal.tanh ((u (ix2 y e) + ∑ k : Fin 2048, (r (ix2 y k) * h (ix2 y k)) * w (ix3 (0 : Fin 1) k e))
            + bi (ix3 (0 : Fin 1) (0 : Fin 1) e)) := by
  unfold k0_pay6
  show (Ideal.ofBits .f32 0x3F800000#32 - z (ix2 y e)) * h (ix2 y e)
      + z (ix2 y e) * Ideal.tanh ((u (ix2 y e) + matmul (φ₁ := .bf16) (φ₂ := .bf16) dot_S256x2048_S2048x2048_S256x2048_1_0_0_1_n_n none (truncf .bf16 (mulf r h) bitsLt_bf16_f32) (shapeCast S2048x2048 w shapeCasts_S1x2048x2048_S2048x2048) (constant (F := Ideal) S256x2048 .f32 0x00000000#32) (ix2 y e))
          + broadcastTo S256x2048 (shapeCast S1x2048 (shapeCast S2048 bi shapeCasts_S1x1x2048_S2048) shapeCasts_S2048_S1x2048) broadcasts_S1x2048_S256x2048 (ix2 y e)) = _
  have hm := mm_apply (mulf (F := Ideal) (s := S256x2048) (φ := .f32) r h) w y e
  exact congrArg (fun t => (Ideal.ofBits .f32 0x3F800000#32 - z (ix2 y e)) * h (ix2 y e) + z (ix2 y e) * Ideal.tanh t)
    (congrArg₂ (· + ·) (congrArg (u (ix2 y e) + ·) hm) (bias_apply bi y e))

end Cert.KernelIdeal.Pay

end
-- ==== Proof.KI.Entry.lean ====
/-
  What the stacked weight and bias arrays hold when the region is entered, entry by entry on the extended reals.

  The host lines give each of the six weight matrices a leading unit axis, join the six along that axis in the order
  W_z, U_z, W_r, U_r, W_h, U_h, and narrow the result to the 16-bit format: on the extended reals the narrowing is the
  identity, so slab g of the stack at (k, e) is the g-th matrix at (k, e).  The three bias vectors get a leading unit
  axis, are joined along it, and the [3, 2048] result is recast as [3, 1, 2048]: row j at (0, e) is the j-th vector
  at e.
-/
import proofs.«173219_j59227599012282_2_alg».proof.Proof.KI.Kit
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Entry

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (c : Dev nD)

/-! ## The two stacks as terms over the arguments -/

/-- The stacked weights: the six matrices, each under a leading unit axis, joined along it and narrowed. -/
theorem wstack_eq :
    (V m c main_v7 : S6x2048x2048.Idx → EReal)
      = truncf (F := Ideal) (φ := .f32) .bf16 (concatenate S6x2048x2048 0
        [ ⟨S1x2048x2048, broadcastInDim S1x2048x2048 ![1, 2] bcast_S2048x2048_S1x2048x2048_1_2 (m ((c : Thread nD τ).loc main_arg2) : S2048x2048.Idx → EReal)⟩,
          ⟨S1x2048x2048, broadcastInDim S1x2048x2048 ![1, 2] bcast_S2048x2048_S1x2048x2048_1_2 (m ((c : Thread nD τ).loc main_arg5) : S2048x2048.Idx → EReal)⟩,
          ⟨S1x2048x2048, broadcastInDim S1x2048x2048 ![1, 2] bcast_S2048x2048_S1x2048x2048_1_2 (m ((c : Thread nD τ).loc main_arg3) : S2048x2048.Idx → EReal)⟩,
          ⟨S1x2048x2048, broadcastInDim S1x2048x2048 ![1, 2] bcast_S2048x2048_S1x2048x2048_1_2 (m ((c : Thread nD τ).loc main_arg6) : S2048x2048.Idx → EReal)⟩,
          ⟨S1x2048x2048, broadcastInDim S1x2048x2048 ![1, 2] bcast_S2048x2048_S1x2048x2048_1_2 (m ((c : Thread nD τ).loc main_arg4) : S2048x2048.Idx → EReal)⟩,
          ⟨S1x2048x2048, broadcastInDim S1x2048x2048 ![1, 2] bcast_S2048x2048_S1x2048x2048_1_2 (m ((c : Thread nD τ).loc main_arg7) : S2048x2048.Idx → EReal)⟩ ]
        concatenates_S1x2048x2048_S1x2048x2048_S1x2048x2048_S1x2048x2048_S1x2048x2048_S1x2048x2048_S6x2048x2048_d0) bitsLt_bf16_f32 := by
  show StableHlo.after hostOps0 (fun b => m (c, b)) (Proc.devRef .tc main_v7) = _
  after_results
  beta_reduce
  simp only [Matrix.cons_val]
  repeat (first | rw [StableHlo.unary_result] | (rw [StableHlo.unary_result_ne]; rotate_left; decide))
  all_goals rfl

/-- The stacked biases: the three vectors, each under a leading unit axis, joined along it and recast. -/
theorem bstack_eq :
    (V m c main_v12 : S3x1x2048.Idx → EReal)
      = shapeCast S3x1x2048 (concatenate S3x2048 0
        [ ⟨S1x2048, broadcastInDim S1x2048 ![1] bcast_S2048_S1x2048_1 (m ((c : Thread nD τ).loc main_arg8) : S2048.Idx → EReal)⟩,
          ⟨S1x2048, broadcastInDim S1x2048 ![1] bcast_S2048_S1x2048_1 (m ((c : Thread nD τ).loc main_arg9) : S2048.Idx → EReal)⟩,
          ⟨S1x2048, broadcastInDim S1x2048 ![1] bcast_S2048_S1x2048_1 (m ((c : Thread nD τ).loc main_arg10) : S2048.Idx → EReal)⟩ ]
        concatenates_S1x2048_S1x2048_S1x2048_S3x2048_d0) shapeCasts_S3x2048_S3x1x2048 := by
  show StableHlo.after hostOps0 (fun b => m (c, b)) (Proc.devRef .tc main_v12) = _
  after_results
  beta_reduce
  simp only [Matrix.cons_val]
  repeat (first | rw [StableHlo.unary_result] | (rw [StableHlo.unary_result_ne]; rotate_left; decide) | (rw [StableHlo.nary_result_ne]; rotate_left; decide))
  all_goals rfl

/-! ## Reading a slab of the weight stack -/

/-- Off the joined axis an entry of a slab sits at the same coordinates of the stack. -/
theorem side_slab (g : Fin 6) (k e : Fin 2048) :
    ∀ b : Fin 3, b.cast rfl ≠ (0 : Fin 3) →
      ((ix3 (0 : Fin 1) k e : S1x2048x2048.Idx) b).val = ((ix3 g k e : S6x2048x2048.Idx) (b.cast rfl)).val := fun b hb => by
  match b with
  | ⟨0, _⟩ => exact absurd rfl hb
  | ⟨1, _⟩ => rfl
  | ⟨2, _⟩ => rfl

/-- A matrix under a leading unit axis, at (0, k, e): the matrix at (k, e). -/
theorem bcast_slab (A : S2048x2048.Idx → EReal) (k e : Fin 2048) :
    broadcastInDim S1x2048x2048 ![1, 2] bcast_S2048x2048_S1x2048x2048_1_2 A (ix3 (0 : Fin 1) k e) = A (ix2 k e) :=
  broadcastInDim_apply ![1, 2] bcast_S2048x2048_S1x2048x2048_1_2 A (ix3 (0 : Fin 1) k e) (ix2 k e) (fun a => match a with
    | ⟨0, _⟩ => by show k.val = if (2048 : ℕ) = 1 then 0 else k.val; rw [if_neg (by decide)]
    | ⟨1, _⟩ => by show e.val = if (2048 : ℕ) = 1 then 0 else e.val; rw [if_neg (by decide)])

/-- Slab 0 of the stacked weights is the update gate's input-side matrix. -/
theorem wstack_0 (k e : Fin 2048) :
    (V m c main_v7 : S6x2048x2048.Idx → EReal) (ix3 (0 : Fin 6) k e)
      = (m ((c : Thread nD τ).loc main_arg2) : S2048x2048.Idx → EReal) (ix2 k e) := by
  refine (congrFun (wstack_eq m c) (ix3 (0 : Fin 6) k e)).trans ?_
  refine (truncf_apply (s := S6x2048x2048) (φ := .f32) (ψ := .bf16) _ bitsLt_bf16_f32 (ix3 (0 : Fin 6) k e)).trans ?_
  refine (concatenate_apply_piece (t := S6x2048x2048) (0 : Fin 3) _ _ (ix3 (0 : Fin 6) k e) 0 (by show (0 : ℕ) < 6; omega)
    S1x2048x2048 _ rfl rfl 0 rfl (ix3 (0 : Fin 1) k e) (side_slab (0 : Fin 6) k e) rfl).trans ?_
  exact bcast_slab _ k e

/-- Slab 1 of the stacked weights is the update gate's hidden-side matrix. -/
theorem wstack_1 (k e : Fin 2048) :
    (V m c main_v7 : S6x2048x2048.Idx → EReal) (ix3 (1 : Fin 6) k e)
      = (m ((c : Thread nD τ).loc main_arg5) : S2048x2048.Idx → EReal) (ix2 k e) := by
  refine (congrFun (wstack_eq m c) (ix3 (1 : Fin 6) k e)).trans ?_
  refine (truncf_apply (s := S6x2048x2048) (φ := .f32) (ψ := .bf16) _ bitsLt_bf16_f32 (ix3 (1 : Fin 6) k e)).trans ?_
  refine (concatenate_apply_piece (t := S6x2048x2048) (0 : Fin 3) _ _ (ix3 (1 : Fin 6) k e) 1 (by show (1 : ℕ) < 6; omega)
    S1x2048x2048 _ rfl rfl 1 rfl (ix3 (0 : Fin 1) k e) (side_slab (1 : Fin 6) k e) rfl).trans ?_
  exact bcast_slab _ k e

/-- Slab 2 of the stacked weights is the reset gate's input-side matrix. -/
theorem wstack_2 (k e : Fin 2048) :
    (V m c main_v7 : S6x2048x2048.Idx → EReal) (ix3 (2 : Fin 6) k e)
      = (m ((c : Thread nD τ).loc main_arg3) : S2048x2048.Idx → EReal) (ix2 k e) := by
  refine (congrFun (wstack_eq m c) (ix3 (2 : Fin 6) k e)).trans ?_
  refine (truncf_apply (s := S6x2048x2048) (φ := .f32) (ψ := .bf16) _ bitsLt_bf16_f32 (ix3 (2 : Fin 6) k e)).trans ?_
  refine (concatenate_apply_piece (t := S6x2048x2048) (0 : Fin 3) _ _ (ix3 (2 : Fin 6) k e) 2 (by show (2 : ℕ) < 6; omega)
    S1x2048x2048 _ rfl rfl 2 rfl (ix3 (0 : Fin 1) k e) (side_slab (2 : Fin 6) k e) rfl).trans ?_
  exact bcast_slab _ k e

/-- Slab 3 of the stacked weights is the reset gate's hidden-side matrix. -/
theorem wstack_3 (k e : Fin 2048) :
    (V m c main_v7 : S6x2048x2048.Idx → EReal) (ix3 (3 : Fin 6) k e)
      = (m ((c : Thread nD τ).loc main_arg6) : S2048x2048.Idx → EReal) (ix2 k e) := by
  refine (congrFun (wstack_eq m c) (ix3 (3 : Fin 6) k e)).trans ?_
  refine (truncf_apply (s := S6x2048x2048) (φ := .f32) (ψ := .bf16) _ bitsLt_bf16_f32 (ix3 (3 : Fin 6) k e)).trans ?_
  refine (concatenate_apply_piece (t := S6x2048x2048) (0 : Fin 3) _ _ (ix3 (3 : Fin 6) k e) 3 (by show (3 : ℕ) < 6; omega)
    S1x2048x2048 _ rfl rfl 3 rfl (ix3 (0 : Fin 1) k e) (side_slab (3 : Fin 6) k e) rfl).trans ?_
  exact bcast_slab _ k e

/-- Slab 4 of the stacked weights is the candidate's input-side matrix. -/
theorem wstack_4 (k e : Fin 2048) :
    (V m c main_v7 : S6x2048x2048.Idx → EReal) (ix3 (4 : Fin 6) k e)
      = (m ((c : Thread nD τ).loc main_arg4) : S2048x2048.Idx → EReal) (ix2 k e) := by
  refine (congrFun (wstack_eq m c) (ix3 (4 : Fin 6) k e)).trans ?_
  refine (truncf_apply (s := S6x2048x2048) (φ := .f32) (ψ := .bf16) _ bitsLt_bf16_f32 (ix3 (4 : Fin 6) k e)).trans ?_
  refine (concatenate_apply_piece (t := S6x2048x2048) (0 : Fin 3) _ _ (ix3 (4 : Fin 6) k e) 4 (by show (4 : ℕ) < 6; omega)
    S1x2048x2048 _ rfl rfl 4 rfl (ix3 (0 : Fin 1) k e) (side_slab (4 : Fin 6) k e) rfl).trans ?_
  exact bcast_slab _ k e

/-- Slab 5 of the stacked weights is the candidate's hidden-side matrix. -/
theorem wstack_5 (k e : Fin 2048) :
    (V m c main_v7 : S6x2048x2048.Idx → EReal) (ix3 (5 : Fin 6) k e)
      = (m ((c : Thread nD τ).loc main_arg7) : S2048x2048.Idx → EReal) (ix2 k e) := by
  refine (congrFun (wstack_eq m c) (ix3 (5 : Fin 6) k e)).trans ?_
  refine (truncf_apply (s := S6x2048x2048) (φ := .f32) (ψ := .bf16) _ bitsLt_bf16_f32 (ix3 (5 : Fin 6) k e)).trans ?_
  refine (concatenate_apply_piece (t := S6x2048x2048) (0 : Fin 3) _ _ (ix3 (5 : Fin 6) k e) 5 (by show (5 : ℕ) < 6; omega)
    S1x2048x2048 _ rfl rfl 5 rfl (ix3 (0 : Fin 1) k e) (side_slab (5 : Fin 6) k e) rfl).trans ?_
  exact bcast_slab _ k e

/-! ## Reading a row of the bias stack -/

/-- Off the joined axis an entry of a row sits at the same coordinate of the stack. -/
theorem side_row (j : Fin 3) (e : Fin 2048) :
    ∀ b : Fin 2, b.cast rfl ≠ (0 : Fin 2) →
      ((ix2 (0 : Fin 1) e : S1x2048.Idx) b).val = ((ix2 j e : S3x2048.Idx) (b.cast rfl)).val := fun b hb => by
  match b with
  | ⟨0, _⟩ => exact absurd rfl hb
  | ⟨1, _⟩ => rfl

/-- A vector under a leading unit axis, at (0, e): the vector at e. -/
theorem bcast_row (x : S2048.Idx → EReal) (e : Fin 2048) :
    broadcastInDim S1x2048 ![1] bcast_S2048_S1x2048_1 x (ix2 (0 : Fin 1) e) = x (ix1 e) :=
  broadcastInDim_apply ![1] bcast_S2048_S1x2048_1 x (ix2 (0 : Fin 1) e) (ix1 e) (fun a => match a with
    | ⟨0, _⟩ => by show e.val = if (2048 : ℕ) = 1 then 0 else e.val; rw [if_neg (by decide)])

/-- Row 0 of the stacked biases is the update gate's bias. -/
theorem bstack_0 (e : Fin 2048) :
    (V m c main_v12 : S3x1x2048.Idx → EReal) (ix3 (0 : Fin 3) (0 : Fin 1) e)
      = (m ((c : Thread nD τ).loc main_arg8) : S2048.Idx → EReal) (ix1 e) := by
  refine (congrFun (bstack_eq m c) (ix3 (0 : Fin 3) (0 : Fin 1) e)).trans ?_
  refine (shapeCast_apply _ shapeCasts_S3x2048_S3x1x2048 (ix3 (0 : Fin 3) (0 : Fin 1) e) (ix2 (0 : Fin 3) e) (by
    rw [Shape.rowMajor_val_two, Shape.rowMajor_val_three]
    show 0 * 2048 + e.val = (0 * 1 + 0) * 2048 + e.val
    omega)).trans ?_
  refine (concatenate_apply_piece (t := S3x2048) (0 : Fin 2) _ _ (ix2 (0 : Fin 3) e) 0 (by show (0 : ℕ) < 3; omega)
    S1x2048 _ rfl rfl 0 rfl (ix2 (0 : Fin 1) e) (side_row (0 : Fin 3) e) rfl).trans ?_
  exact bcast_row _ e

/-- Row 1 of the stacked biases is the reset gate's bias. -/
theorem bstack_1 (e : Fin 2048) :
    (V m c main_v12 : S3x1x2048.Idx → EReal) (ix3 (1 : Fin 3) (0 : Fin 1) e)
      = (m ((c : Thread nD τ).loc main_arg9) : S2048.Idx → EReal) (ix1 e) := by
  refine (congrFun (bstack_eq m c) (ix3 (1 : Fin 3) (0 : Fin 1) e)).trans ?_
  refine (shapeCast_apply _ shapeCasts_S3x2048_S3x1x2048 (ix3 (1 : Fin 3) (0 : Fin 1) e) (ix2 (1 : Fin 3) e) (by
    rw [Shape.rowMajor_val_two, Shape.rowMajor_val_three]
    show 1 * 2048 + e.val = (1 * 1 + 0) * 2048 + e.val
    omega)).trans ?_
  refine (concatenate_apply_piece (t := S3x2048) (0 : Fin 2) _ _ (ix2 (1 : Fin 3) e) 1 (by show (1 : ℕ) < 3; omega)
    S1x2048 _ rfl rfl 1 rfl (ix2 (0 : Fin 1) e) (side_row (1 : Fin 3) e) rfl).trans ?_
  exact bcast_row _ e

/-- Row 2 of the stacked biases is the candidate's bias. -/
theorem bstack_2 (e : Fin 2048) :
    (V m c main_v12 : S3x1x2048.Idx → EReal) (ix3 (2 : Fin 3) (0 : Fin 1) e)
      = (m ((c : Thread nD τ).loc main_arg10) : S2048.Idx → EReal) (ix1 e) := by
  refine (congrFun (bstack_eq m c) (ix3 (2 : Fin 3) (0 : Fin 1) e)).trans ?_
  refine (shapeCast_apply _ shapeCasts_S3x2048_S3x1x2048 (ix3 (2 : Fin 3) (0 : Fin 1) e) (ix2 (2 : Fin 3) e) (by
    rw [Shape.rowMajor_val_two, Shape.rowMajor_val_three]
    show 2 * 2048 + e.val = (2 * 1 + 0) * 2048 + e.val
    omega)).trans ?_
  refine (concatenate_apply_piece (t := S3x2048) (0 : Fin 2) _ _ (ix2 (2 : Fin 3) e) 2 (by show (2 : ℕ) < 3; omega)
    S1x2048 _ rfl rfl 2 rfl (ix2 (0 : Fin 1) e) (side_row (2 : Fin 3) e) rfl).trans ?_
  exact bcast_row _ e

end Cert.KernelIdeal.Entry

end
-- ==== Proof.Spec.lean ====
/-
  The GRU cell as one function of its eleven argument arrays, entry by entry, on the extended reals.

  For a batch row `p` and a hidden unit `e`:
    z[p,e]  = σ( (x·W_z)[p,e] + (h·U_z)[p,e] + b_z[e] )
    r[p,k]  = σ( (x·W_r)[p,k] + (h·U_r)[p,k] + b_r[k] )
    c[p,e]  = tanh( (x·W_h)[p,e] + Σₖ (r[p,k]·h[p,k])·U_h[k,e] + b_h[e] )
    out[p,e] = (1 − z[p,e])·h[p,e] + z[p,e]·c[p,e]
  where every matrix product is the plain sum over the 2048 contracted coordinates, σ is the logistic function
  1/(1+e^(−y)) with its conventions at the infinities, and the additions associate to the left as written.
-/
import Idealize.ShloMosaic.PureOps.Ideal
import Idealize.ShloMosaic.Lib.ValueIdx

noncomputable section

open scoped BigOperators

namespace Cert.GruSpec

open Idealize.ShloMosaic Idealize.ShloMosaic.ValueIdx

/-- Batch rows by features. -/
abbrev SBH : Shape := ⟨2, ![8192, 2048]⟩
/-- A square weight matrix. -/
abbrev SHH : Shape := ⟨2, ![2048, 2048]⟩
/-- A bias vector. -/
abbrev SH : Shape := ⟨1, ![2048]⟩

/-- Row `p` of `a` against column `e` of `w`. -/
def dot (a : FVec Ideal SBH .f32) (w : FVec Ideal SHH .f32) (p : Fin 8192) (e : Fin 2048) : EReal :=
  ∑ k : Fin 2048, a (ix2 p k) * w (ix2 k e)

/-- A gate: the logistic function of the two projections and the bias, summed left to right. -/
def gate (x h : FVec Ideal SBH .f32) (W U : FVec Ideal SHH .f32) (b : FVec Ideal SH .f32) (p : Fin 8192) (e : Fin 2048) : EReal :=
  Ideal.logistic ((dot x W p e + dot h U p e) + b (ix1 e))

/-- The candidate state: the reset gate scales the previous state row before its projection. -/
def cand (x h : FVec Ideal SBH .f32) (Wr Ur : FVec Ideal SHH .f32) (br : FVec Ideal SH .f32)
    (Wh Uh : FVec Ideal SHH .f32) (bh : FVec Ideal SH .f32) (p : Fin 8192) (e : Fin 2048) : EReal :=
  Ideal.tanh ((dot x Wh p e + ∑ k : Fin 2048, (gate x h Wr Ur br p k * h (ix2 p k)) * Uh (ix2 k e)) + bh (ix1 e))

/-- The new state at row `p`, unit `e`; the literal is the float word of 1. -/
def cell (x h : FVec Ideal SBH .f32) (Wz Wr Wh Uz Ur Uh : FVec Ideal SHH .f32) (bz br bh : FVec Ideal SH .f32)
    (p : Fin 8192) (e : Fin 2048) : EReal :=
  (Ideal.ofBits .f32 0x3F800000#32 - gate x h Wz Uz bz p e) * h (ix2 p e)
    + gate x h Wz Uz bz p e * cand x h Wr Ur br Wh Uh bh p e

/-- The whole result array. -/
def G (x h : FVec Ideal SBH .f32) (Wz Wr Wh Uz Ur Uh : FVec Ideal SHH .f32) (bz br bh : FVec Ideal SH .f32) :
    FVec Ideal SBH .f32 :=
  fun i => cell x h Wz Wr Wh Uz Ur Uh bz br bh (i 0) (i 1)

theorem G_apply (x h : FVec Ideal SBH .f32) (Wz Wr Wh Uz Ur Uh : FVec Ideal SHH .f32) (bz br bh : FVec Ideal SH .f32)
    (p : Fin 8192) (e : Fin 2048) :
    G x h Wz Wr Wh Uz Ur Uh bz br bh (ix2 p e) = cell x h Wz Wr Wh Uz Ur Uh bz br bh p e := rfl

end Cert.GruSpec

end
-- ==== Proof.KI.Value.lean ====
/-
  The value of the fused GRU kernel at the ideal instance: the result array ends holding the GRU cell of the eleven
  argument arrays, entry by entry.  Within the tile of rows 256·b …, the three accumulators are read at a row `p` of the
  tile and a unit `e` as the specification's projections and gates of row 256·b + p: each matrix product is the plain sum
  over the 2048 contracted coordinates of a batch block against one matrix of the stack; the bias block is one vector of
  the stack; the last step's store is the cell.  Every entry of the result lies in the block its tile's last step writes
  back, so the array after all write-backs is the cell everywhere.
-/
import proofs.«173219_j59227599012282_2_alg».proof.Proof.KI.Blocks
import proofs.«173219_j59227599012282_2_alg».proof.Proof.KI.Frame
import proofs.«173219_j59227599012282_2_alg».proof.Proof.KI.Pay
import proofs.«173219_j59227599012282_2_alg».proof.Proof.KI.Entry
import proofs.«173219_j59227599012282_2_alg».proof.Proof.Spec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen Cert.KernelIdeal.Pay Cert.KernelIdeal.Entry

variable (m : (ℓ : Loc nD τ sig) → Buf (Elt Ideal) ℓ) (ρ : Dev nD → PrngReg) (c : Dev nD)

theorem pt_val (n : ℕ) (h : n < 192) : (pt n).val = n := by show n % 192 = n; omega

/-! ## A batch block against one matrix of the stack -/

/-- Rows of the input block against the weight block at point `t`, when that block is the matrix `Wg`. -/
theorem xdot_at (t : Fin cfg0.N) (g : Fin 6) (hg : g.val = t.val % 6) (Wg : FVec Ideal GruSpec.SHH .f32)
    (hW : ∀ k e : Fin 2048, V m c main_v7 (ix3 g k e) = Wg (ix2 k e))
    (p : Fin 256) (e : Fin 2048) (P : Fin 8192) (hP : P.val = 256 * (t.val / 6) + p.val)
    (xb : Vec Ideal S256x2048 .f32) (wb : Vec Ideal S1x2048x2048 .bf16) (hx : xb = iblk m c 2 t) (hw : wb = iblk m c 0 t) :
    ∑ k : Fin 2048, xb (ix2 p k) * wb (ix3 (0 : Fin 1) k e) = GruSpec.dot (m ((c : Thread nD τ).loc main_arg0)) Wg P e := by
  subst hx hw
  unfold GruSpec.dot
  refine Finset.sum_congr rfl fun k _ => ?_
  rw [xblk_at m c t p k P hP, wblk_at m c t k e g hg, hW, V_arg0]

/-- Rows of the previous-state block against the weight block at point `t`. -/
theorem hdot_at (t : Fin cfg0.N) (g : Fin 6) (hg : g.val = t.val % 6) (Wg : FVec Ideal GruSpec.SHH .f32)
    (hW : ∀ k e : Fin 2048, V m c main_v7 (ix3 g k e) = Wg (ix2 k e))
    (p : Fin 256) (e : Fin 2048) (P : Fin 8192) (hP : P.val = 256 * (t.val / 6) + p.val)
    (hb : Vec Ideal S256x2048 .f32) (wb : Vec Ideal S1x2048x2048 .bf16) (hh : hb = iblk m c 3 t) (hw : wb = iblk m c 0 t) :
    ∑ k : Fin 2048, hb (ix2 p k) * wb (ix3 (0 : Fin 1) k e) = GruSpec.dot (m ((c : Thread nD τ).loc main_arg1)) Wg P e := by
  subst hh hw
  unfold GruSpec.dot
  refine Finset.sum_congr rfl fun k _ => ?_
  rw [hblk_at m c t p k P hP, wblk_at m c t k e g hg, hW, V_arg1]

/-! ## The accumulators of the tile that starts at point `s`, at row `p` of the tile (row `P` of the batch) -/

section Tile
variable (s : ℕ) (hs6 : s % 6 = 0) (hs : s + 5 < 192) (p : Fin 256) (P : Fin 8192) (hP : P.val = 256 * (s / 6) + p.val)
include hs6 hs hP

theorem Z0_at (e : Fin 2048) : Z0 m c s (ix2 p e) = GruSpec.dot (m ((c : Thread nD τ).loc main_arg0)) (m ((c : Thread nD τ).loc main_arg2)) P e := by
  have hv : (pt s).val = s := pt_val s (by omega)
  unfold Z0
  exact (pay1_apply (iblk m c 2 (pt s)) (iblk m c 0 (pt s)) p e).trans
    (xdot_at m c (pt s) (0 : Fin 6) (by rw [hv]; exact (by omega : (0 : ℕ) = s % 6)) _ (wstack_0 m c) p e P (by rw [hv]; exact hP) _ _ rfl rfl)

theorem Zf_at (e : Fin 2048) : Zf m c s (ix2 p e) = GruSpec.gate (m ((c : Thread nD τ).loc main_arg0)) (m ((c : Thread nD τ).loc main_arg1)) (m ((c : Thread nD τ).loc main_arg2)) (m ((c : Thread nD τ).loc main_arg5)) (m ((c : Thread nD τ).loc main_arg8)) P e := by
  have hv : (pt (s + 1)).val = s + 1 := pt_val _ (by omega)
  unfold Zf GruSpec.gate
  refine (pay2_apply (iblk m c 3 (pt (s + 1))) (iblk m c 0 (pt (s + 1))) (iblk m c 1 (pt (s + 1))) (Z0 m c s) p e).trans ?_
  rw [Z0_at m c s hs6 hs p P hP e,
    hdot_at m c (pt (s + 1)) (1 : Fin 6) (by rw [hv]; exact (by omega : (1 : ℕ) = (s + 1) % 6)) _ (wstack_1 m c) p e P (by rw [hv]; exact (by omega : P.val = 256 * ((s + 1) / 6) + p.val)) _ _ rfl rfl,
    bblk_at m c (pt (s + 1)) e (0 : Fin 3) (by rw [hv]; exact (by omega : (0 : ℕ) = (s + 1) % 6 / 2)), bstack_0 m c e]

theorem R0_at (e : Fin 2048) : R0 m c s (ix2 p e) = GruSpec.dot (m ((c : Thread nD τ).loc main_arg0)) (m ((c : Thread nD τ).loc main_arg3)) P e := by
  have hv : (pt (s + 2)).val = s + 2 := pt_val _ (by omega)
  unfold R0
  exact (pay3_apply (iblk m c 2 (pt (s + 2))) (iblk m c 0 (pt (s + 2))) p e).trans
    (xdot_at m c (pt (s + 2)) (2 : Fin 6) (by rw [hv]; exact (by omega : (2 : ℕ) = (s + 2) % 6)) _ (wstack_2 m c) p e P (by rw [hv]; exact (by omega : P.val = 256 * ((s + 2) / 6) + p.val)) _ _ rfl rfl)

theorem Rf_at (e : Fin 2048) : Rf m c s (ix2 p e) = GruSpec.gate (m ((c : Thread nD τ).loc main_arg0)) (m ((c : Thread nD τ).loc main_arg1)) (m ((c : Thread nD τ).loc main_arg3)) (m ((c : Thread nD τ).loc main_arg6)) (m ((c : Thread nD τ).loc main_arg9)) P e := by
  have hv : (pt (s + 3)).val = s + 3 := pt_val _ (by omega)
  unfold Rf GruSpec.gate
  refine (pay4_apply (iblk m c 3 (pt (s + 3))) (iblk m c 0 (pt (s + 3))) (iblk m c 1 (pt (s + 3))) (R0 m c s) p e).trans ?_
  rw [R0_at m c s hs6 hs p P hP e,
    hdot_at m c (pt (s + 3)) (3 : Fin 6) (by rw [hv]; exact (by omega : (3 : ℕ) = (s + 3) % 6)) _ (wstack_3 m c) p e P (by rw [hv]; exact (by omega : P.val = 256 * ((s + 3) / 6) + p.val)) _ _ rfl rfl,
    bblk_at m c (pt (s + 3)) e (1 : Fin 3) (by rw [hv]; exact (by omega : (1 : ℕ) = (s + 3) % 6 / 2)), bstack_1 m c e]

theorem Wf_at (e : Fin 2048) : Wf m c s (ix2 p e) = GruSpec.dot (m ((c : Thread nD τ).loc main_arg0)) (m ((c : Thread nD τ).loc main_arg4)) P e := by
  have hv : (pt (s + 4)).val = s + 4 := pt_val _ (by omega)
  unfold Wf
  exact (pay5_apply (iblk m c 2 (pt (s + 4))) (iblk m c 0 (pt (s + 4))) p e).trans
    (xdot_at m c (pt (s + 4)) (4 : Fin 6) (by rw [hv]; exact (by omega : (4 : ℕ) = (s + 4) % 6)) _ (wstack_4 m c) p e P (by rw [hv]; exact (by omega : P.val = 256 * ((s + 4) / 6) + p.val)) _ _ rfl rfl)

/-- The last step's store is the cell. -/
theorem Of_at (e : Fin 2048) : Of m c s (ix2 p e) = GruSpec.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) P e := by
  have hv : (pt (s + 5)).val = s + 5 := pt_val _ (by omega)
  have hP5 : P.val = 256 * ((pt (s + 5)).val / 6) + p.val := by rw [hv]; omega
  unfold Of GruSpec.cell GruSpec.cand
  refine (pay6_apply (iblk m c 3 (pt (s + 5))) (Rf m c s) (iblk m c 0 (pt (s + 5))) (iblk m c 1 (pt (s + 5))) (Wf m c s) (Zf m c s) p e).trans ?_
  have hsum : ∀ (hb : Vec Ideal S256x2048 .f32) (wb : Vec Ideal S1x2048x2048 .bf16), hb = iblk m c 3 (pt (s + 5)) → wb = iblk m c 0 (pt (s + 5)) →
      ∑ k : Fin 2048, (Rf m c s (ix2 p k) * hb (ix2 p k)) * wb (ix3 (0 : Fin 1) k e)
      = ∑ k : Fin 2048, (GruSpec.gate (m ((c : Thread nD τ).loc main_arg0)) (m ((c : Thread nD τ).loc main_arg1)) (m ((c : Thread nD τ).loc main_arg3)) (m ((c : Thread nD τ).loc main_arg6)) (m ((c : Thread nD τ).loc main_arg9)) P k * (m ((c : Thread nD τ).loc main_arg1)) (ix2 P k)) * (m ((c : Thread nD τ).loc main_arg7)) (ix2 k e) := by
    intro hb wb hh hw
    subst hh hw
    exact Finset.sum_congr rfl fun k _ => by
      rw [Rf_at m c s hs6 hs p P hP k, hblk_at m c (pt (s + 5)) p k P hP5,
        wblk_at m c (pt (s + 5)) k e (5 : Fin 6) (by rw [hv]; exact (by omega : (5 : ℕ) = (s + 5) % 6)), wstack_5 m c k e, V_arg1]
  rw [hsum _ _ rfl rfl, Zf_at m c s hs6 hs p P hP e, Wf_at m c s hs6 hs p P hP e, hblk_at m c (pt (s + 5)) p e P hP5, V_arg1,
    bblk_at m c (pt (s + 5)) e (2 : Fin 3) (by rw [hv]; exact (by omega : (2 : ℕ) = (s + 5) % 6 / 2)), bstack_2 m c e]

end Tile

/-! ## From blocks to the array -/

/-- What a tile's last step writes back is its block of the cell. -/
theorem flushed_eq (t : Fin cfg0.N) (hf : (cfg0.win 4).flush t = true) :
    (dats m 0 c).flushed 4 t = ((cfg0.win 4).blk t).view.read (Elt Ideal) (GruSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have h5 : t.val % 6 = 5 := (flush0_4 t).mp hf
  have hN : t.val < 192 := lt_of_lt_of_eq t.isLt N192
  show (cfg0.win 4).cut (grid0.coords t) ((dats m 0 c).after 4 t) = _
  rw [after_4]
  funext y
  obtain ⟨p, e, rfl⟩ : ∃ (p : Fin 256) (e : Fin 2048), y = ix2 p e := ⟨y 0, y 1, eq_ix2 y⟩
  have hlt : 256 * (t.val / 6) + p.val < 8192 := by have := p.isLt; omega
  show Of m c (t.val - 5) (ix2 p e) = GruSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 4).blk t).view.emb (ix2 p e))
  rw [oblk_emb_at t p e ⟨256 * (t.val / 6) + p.val, hlt⟩ rfl, GruSpec.G_apply]
  exact Of_at m c (t.val - 5) (by omega) (by omega) p ⟨256 * (t.val / 6) + p.val, hlt⟩
    (by show 256 * (t.val / 6) + p.val = 256 * ((t.val - 5) / 6) + p.val; omega) e

/-- The result array after all write-backs is the cell of the argument arrays. -/
theorem final (c : Dev nD) : (dats m 0 c).arrAt 4 cfg0.N = GruSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 4 _ (fun t hf => flushed_eq m c t hf) ocover

/-- The run, read: the result array at the cell, the arguments unchanged. -/
theorem value_run : θ_run defs (onTc (τ := τ) (main (F := Ideal))) ⟨m, fun _ => 0, ρ⟩ (fun r => ∀ c : Dev nD,
      r.2.mem ((c.tc : Thread nD τ).loc main_v13) = GruSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 4).trans (final m c), kept_args m r h c⟩) (run_main m ρ)

end Cert.KernelIdeal.Hand

end
-- ==== Proof.RefValue.lean ====
/-
  The reference program's result array is the GRU cell of the specification, entry by entry on the extended reals.

  The reference joins the three input-side weight matrices along their columns into one [2048, 6144] array and the
  two hidden-side gate matrices into one [2048, 4096] array, takes one product against each, and slices the
  products back into blocks of 2048 columns.  Read at an entry, column off + e of a joined array is column e of the
  operand whose span holds it, so each sliced block of a product is the plain sum Σ_k a[p,k]·w[k,e] against that one
  operand.  The biases are row vectors repeated down the batch.  The logistic function arrives spelled out as
  1 / (1 + exp(−y)) with the float word of 1 for both ones; that word denotes 1, and the expression is then the
  logistic function of the extended reals by its definition.  The remaining steps are one operation per entry.
-/
import proofs.«173219_j59227599012282_2_alg».proof.Proof.Gen.ReferenceIdeal.Read
import proofs.«173219_j59227599012282_2_alg».proof.Proof.Spec

noncomputable section

open scoped BigOperators

namespace Cert.RefValue

open Idealize.ShloMosaic Idealize.ShloMosaic.ValueIdx Cert.ReferenceIdeal Cert.ReferenceIdeal.Gen Cert.ReferenceIdeal.Read

/-- A batch-by-features array of the reference. -/
abbrev ABH : Type := (⟨S8192x2048, .f32⟩ : BufTy).Contents (Elt Ideal)
/-- A square weight matrix of the reference. -/
abbrev AHH : Type := (⟨S2048x2048, .f32⟩ : BufTy).Contents (Elt Ideal)
/-- A bias vector of the reference. -/
abbrev AH : Type := (⟨S2048, .f32⟩ : BufTy).Contents (Elt Ideal)

/-! ## The float word of one -/

/-- The word 0x3F800000 (sign 0, biased exponent 127, fraction 0) denotes 1. -/
theorem ofBits_one : Ideal.ofBits .f32 0x3F800000#32 = 1 := by
  simp [Ideal.ofBits, Ideal.ieee, -EReal.coe_mul]; norm_num

/-! ## The joined weight arrays at an entry -/

/-- Off the joined axis an entry of a piece sits at the same coordinate of the joined array. -/
theorem side_cols {C : ℕ} (j : (⟨2, ![2048, C]⟩ : Shape).Idx) (k e : Fin 2048) (h0 : (j 0).val = k.val) :
    ∀ b : Fin 2, b.cast rfl ≠ (1 : Fin 2) →
      ((ix2 k e : (⟨2, ![2048, 2048]⟩ : Shape).Idx) b).val = (j (b.cast rfl)).val := fun b hb => by
  match b with
  | ⟨0, _⟩ => exact h0.symm
  | ⟨1, _⟩ => exact absurd rfl hb

/-- Columns 0 … 2047 of the three joined input-side matrices are the first. -/
theorem v0_fst (x2 x3 x4 : AHH) (j : S2048x6144.Idx) (k e : Fin 2048) (h0 : (j 0).val = k.val)
    (h1 : (j 1).val = e.val) : val_main_v0 (F := Ideal) x2 x3 x4 j = x2 (ix2 k e) := by
  unfold val_main_v0
  exact concatenate_apply_piece (t := S2048x6144) (1 : Fin 2) _ _ j 0 (by show (0 : ℕ) < 3; omega) S2048x2048 x2 rfl rfl 0 rfl
    (ix2 k e) (side_cols j k e h0) (by show 0 + e.val = (j 1).val; omega)

/-- Columns 2048 … 4095 of the three joined input-side matrices are the second. -/
theorem v0_snd (x2 x3 x4 : AHH) (j : S2048x6144.Idx) (k e : Fin 2048) (h0 : (j 0).val = k.val)
    (h1 : (j 1).val = 2048 + e.val) : val_main_v0 (F := Ideal) x2 x3 x4 j = x3 (ix2 k e) := by
  unfold val_main_v0
  exact concatenate_apply_piece (t := S2048x6144) (1 : Fin 2) _ _ j 1 (by show (1 : ℕ) < 3; omega) S2048x2048 x3 rfl rfl 2048 rfl
    (ix2 k e) (side_cols j k e h0) (by show 2048 + e.val = (j 1).val; omega)

/-- Columns 4096 … 6143 of the three joined input-side matrices are the third. -/
theorem v0_thd (x2 x3 x4 : AHH) (j : S2048x6144.Idx) (k e : Fin 2048) (h0 : (j 0).val = k.val)
    (h1 : (j 1).val = 4096 + e.val) : val_main_v0 (F := Ideal) x2 x3 x4 j = x4 (ix2 k e) := by
  unfold val_main_v0
  exact concatenate_apply_piece (t := S2048x6144) (1 : Fin 2) _ _ j 2 (by show (2 : ℕ) < 3; omega) S2048x2048 x4 rfl rfl 4096 rfl
    (ix2 k e) (side_cols j k e h0) (by show 4096 + e.val = (j 1).val; omega)

/-- Columns 0 … 2047 of the two joined hidden-side matrices are the first. -/
theorem v2_fst (x5 x6 : AHH) (j : S2048x4096.Idx) (k e : Fin 2048) (h0 : (j 0).val = k.val)
    (h1 : (j 1).val = e.val) : val_main_v2 (F := Ideal) x5 x6 j = x5 (ix2 k e) := by
  unfold val_main_v2
  exact concatenate_apply_piece (t := S2048x4096) (1 : Fin 2) _ _ j 0 (by show (0 : ℕ) < 2; omega) S2048x2048 x5 rfl rfl 0 rfl
    (ix2 k e) (side_cols j k e h0) (by show 0 + e.val = (j 1).val; omega)

/-- Columns 2048 … 4095 of the two joined hidden-side matrices are the second. -/
theorem v2_snd (x5 x6 : AHH) (j : S2048x4096.Idx) (k e : Fin 2048) (h0 : (j 0).val = k.val)
    (h1 : (j 1).val = 2048 + e.val) : val_main_v2 (F := Ideal) x5 x6 j = x6 (ix2 k e) := by
  unfold val_main_v2
  exact concatenate_apply_piece (t := S2048x4096) (1 : Fin 2) _ _ j 1 (by show (1 : ℕ) < 2; omega) S2048x2048 x6 rfl rfl 2048 rfl
    (ix2 k e) (side_cols j k e h0) (by show 2048 + e.val = (j 1).val; omega)

/-! ## The left operand's index in each product -/

/-- Row p, contracted coordinate k, in the product against the input-side join. -/
theorem lidx_v1 (i : S8192x6144.Idx) (k : Fin 2048) (p : Fin 8192) (hp : (i 0).val = p.val) :
    lidx_main_v1 i k = ix2 p k := by
  funext a
  match a with
  | ⟨0, _⟩ => exact Fin.ext hp
  | ⟨1, _⟩ => rfl

/-- Row p, contracted coordinate k, in the product against the hidden-side join. -/
theorem lidx_v3 (i : S8192x4096.Idx) (k : Fin 2048) (p : Fin 8192) (hp : (i 0).val = p.val) :
    lidx_main_v3 i k = ix2 p k := by
  funext a
  match a with
  | ⟨0, _⟩ => exact Fin.ext hp
  | ⟨1, _⟩ => rfl

/-! ## The five sliced blocks of the two products -/

/-- The first block of the input-side product: the input against W_z. -/
theorem v4_read (x0 : ABH) (x2 x3 x4 : AHH) (p : Fin 8192) (e : Fin 2048) :
    val_main_v4 (F := Ideal) x0 x2 x3 x4 (ix2 p e) = GruSpec.dot x0 x2 p e := by
  rw [val_main_v4_apply, val_main_v1_apply]
  unfold GruSpec.dot
  refine Finset.sum_congr rfl fun k _ => ?_
  rw [lidx_v1 _ k p rfl, v0_fst x2 x3 x4 _ k e rfl rfl]

/-- The second block of the input-side product: the input against W_r. -/
theorem v16_read (x0 : ABH) (x2 x3 x4 : AHH) (p : Fin 8192) (e : Fin 2048) :
    val_main_v16 (F := Ideal) x0 x2 x3 x4 (ix2 p e) = GruSpec.dot x0 x3 p e := by
  rw [val_main_v16_apply, val_main_v1_apply]
  unfold GruSpec.dot
  refine Finset.sum_congr rfl fun k _ => ?_
  rw [lidx_v1 _ k p rfl, v0_snd x2 x3 x4 _ k e rfl rfl]

/-- The third block of the input-side product: the input against W_h. -/
theorem v28_read (x0 : ABH) (x2 x3 x4 : AHH) (p : Fin 8192) (e : Fin 2048) :
    val_main_v28 (F := Ideal) x0 x2 x3 x4 (ix2 p e) = GruSpec.dot x0 x4 p e := by
  rw [val_main_v28_apply, val_main_v1_apply]
  unfold GruSpec.dot
  refine Finset.sum_congr rfl fun k _ => ?_
  rw [lidx_v1 _ k p rfl, v0_thd x2 x3 x4 _ k e rfl rfl]

/-- The first block of the hidden-side product: the previous state against U_z. -/
theorem v5_read (x1 : ABH) (x5 x6 : AHH) (p : Fin 8192) (e : Fin 2048) :
    val_main_v5 (F := Ideal) x1 x5 x6 (ix2 p e) = GruSpec.dot x1 x5 p e := by
  rw [val_main_v5_apply, val_main_v3_apply]
  unfold GruSpec.dot
  refine Finset.sum_congr rfl fun k _ => ?_
  rw [lidx_v3 _ k p rfl, v2_fst x5 x6 _ k e rfl rfl]

/-- The second block of the hidden-side product: the previous state against U_r. -/
theorem v17_read (x1 : ABH) (x5 x6 : AHH) (p : Fin 8192) (e : Fin 2048) :
    val_main_v17 (F := Ideal) x1 x5 x6 (ix2 p e) = GruSpec.dot x1 x6 p e := by
  rw [val_main_v17_apply, val_main_v3_apply]
  unfold GruSpec.dot
  refine Finset.sum_congr rfl fun k _ => ?_
  rw [lidx_v3 _ k p rfl, v2_snd x5 x6 _ k e rfl rfl]

/-! ## The biases, repeated down the batch -/

/-- The update gate's bias as a row repeated down the batch, at (p, e). -/
theorem v8_read (x8 : AH) (p : Fin 8192) (e : Fin 2048) : val_main_v8 (F := Ideal) x8 (ix2 p e) = x8 (ix1 e) := by
  rw [val_main_v8_apply, val_main_v7_apply]
  exact congrArg x8 (funext fun a => match a with | ⟨0, _⟩ => rfl)

/-- The reset gate's bias as a row repeated down the batch, at (p, e). -/
theorem v20_read (x9 : AH) (p : Fin 8192) (e : Fin 2048) : val_main_v20 (F := Ideal) x9 (ix2 p e) = x9 (ix1 e) := by
  rw [val_main_v20_apply, val_main_v19_apply]
  exact congrArg x9 (funext fun a => match a with | ⟨0, _⟩ => rfl)

/-- The candidate's bias as a row repeated down the batch, at (p, e). -/
theorem v33_read (x10 : AH) (p : Fin 8192) (e : Fin 2048) : val_main_v33 (F := Ideal) x10 (ix2 p e) = x10 (ix1 e) := by
  rw [val_main_v33_apply, val_main_v32_apply]
  exact congrArg x10 (funext fun a => match a with | ⟨0, _⟩ => rfl)

/-! ## The ones of the spelled-out logistic function -/

/-- The one added to the exponential, update gate. -/
theorem v12_one (i : S8192x2048.Idx) : val_main_v12 (F := Ideal) i = (1 : EReal) := by
  rw [val_main_v12_apply, val_main_cst_apply]; exact ofBits_one
/-- The numerator, update gate. -/
theorem v14_one (i : S8192x2048.Idx) : val_main_v14 (F := Ideal) i = (1 : EReal) := by
  rw [val_main_v14_apply, val_main_cst_0_apply]; exact ofBits_one
/-- The one added to the exponential, reset gate. -/
theorem v24_one (i : S8192x2048.Idx) : val_main_v24 (F := Ideal) i = (1 : EReal) := by
  rw [val_main_v24_apply, val_main_cst_1_apply]; exact ofBits_one
/-- The numerator, reset gate. -/
theorem v26_one (i : S8192x2048.Idx) : val_main_v26 (F := Ideal) i = (1 : EReal) := by
  rw [val_main_v26_apply, val_main_cst_2_apply]; exact ofBits_one
/-- The one of 1 − z stays the float word, as the specification writes it. -/
theorem v36_word (i : S8192x2048.Idx) : val_main_v36 (F := Ideal) i = Ideal.ofBits .f32 0x3F800000#32 := by
  rw [val_main_v36_apply, val_main_cst_3_apply]; rfl

/-! ## The gates -/

/-- The update gate. -/
theorem v15_read (x0 x1 : ABH) (x2 x3 x4 x5 x6 : AHH) (x8 : AH) (p : Fin 8192) (e : Fin 2048) :
    val_main_v15 (F := Ideal) x0 x1 x2 x3 x4 x5 x6 x8 (ix2 p e) = GruSpec.gate x0 x1 x2 x5 x8 p e := by
  rw [val_main_v15_apply, val_main_v13_apply, val_main_v11_apply, val_main_v10_apply, val_main_v9_apply,
    val_main_v6_apply, v4_read, v5_read, v8_read, v14_one, v12_one]
  rfl

/-- The reset gate. -/
theorem v27_read (x0 x1 : ABH) (x2 x3 x4 x5 x6 : AHH) (x9 : AH) (p : Fin 8192) (e : Fin 2048) :
    val_main_v27 (F := Ideal) x0 x1 x2 x3 x4 x5 x6 x9 (ix2 p e) = GruSpec.gate x0 x1 x3 x6 x9 p e := by
  rw [val_main_v27_apply, val_main_v25_apply, val_main_v23_apply, val_main_v22_apply, val_main_v21_apply,
    val_main_v18_apply, v16_read, v17_read, v20_read, v26_one, v24_one]
  rfl

/-! ## The candidate state -/

/-- Row p, contracted coordinate k, in the product of the gated state against U_h. -/
theorem lidx_v30 (i : S8192x2048.Idx) (k : Fin 2048) (p : Fin 8192) (hp : (i 0).val = p.val) :
    lidx_main_v30 i k = ix2 p k := by
  funext a
  match a with
  | ⟨0, _⟩ => exact Fin.ext hp
  | ⟨1, _⟩ => rfl

/-- Contracted coordinate k, column e, of U_h. -/
theorem ridx_v30 (i : S8192x2048.Idx) (k e : Fin 2048) (he : (i 1).val = e.val) :
    ridx_main_v30 i k = ix2 k e := by
  funext a
  match a with
  | ⟨0, _⟩ => rfl
  | ⟨1, _⟩ => exact Fin.ext he

/-- The reset gate times the previous state. -/
theorem v29_read (x0 x1 : ABH) (x2 x3 x4 x5 x6 : AHH) (x9 : AH) (p : Fin 8192) (k : Fin 2048) :
    val_main_v29 (F := Ideal) x0 x1 x2 x3 x4 x5 x6 x9 (ix2 p k)
      = GruSpec.gate x0 x1 x3 x6 x9 p k * x1 (ix2 p k) := by
  rw [val_main_v29_apply, v27_read]
  rfl

/-- The gated state against U_h. -/
theorem v30_read (x0 x1 : ABH) (x2 x3 x4 x5 x6 x7 : AHH) (x9 : AH) (p : Fin 8192) (e : Fin 2048) :
    val_main_v30 (F := Ideal) x0 x1 x2 x3 x4 x5 x6 x7 x9 (ix2 p e)
      = ∑ k : Fin 2048, (GruSpec.gate x0 x1 x3 x6 x9 p k * x1 (ix2 p k)) * x7 (ix2 k e) := by
  rw [val_main_v30_apply]
  refine Finset.sum_congr rfl fun k _ => ?_
  rw [lidx_v30 _ k p rfl, ridx_v30 _ k e rfl, v29_read]

/-- The candidate state. -/
theorem v35_read (x0 x1 : ABH) (x2 x3 x4 x5 x6 x7 : AHH) (x9 x10 : AH) (p : Fin 8192) (e : Fin 2048) :
    val_main_v35 (F := Ideal) x0 x1 x2 x3 x4 x5 x6 x7 x9 x10 (ix2 p e)
      = GruSpec.cand x0 x1 x3 x6 x9 x4 x7 x10 p e := by
  rw [val_main_v35_apply, val_main_v34_apply, val_main_v31_apply, v28_read, v30_read, v33_read]
  rfl

/-! ## The new state -/

/-- The reference's result at (p, e) is the cell. -/
theorem v40_read (x0 x1 : ABH) (x2 x3 x4 x5 x6 x7 : AHH) (x8 x9 x10 : AH) (p : Fin 8192) (e : Fin 2048) :
    val_main_v40 (F := Ideal) x0 x1 x2 x3 x4 x5 x6 x7 x8 x9 x10 (ix2 p e)
      = GruSpec.cell x0 x1 x2 x3 x4 x5 x6 x7 x8 x9 x10 p e := by
  rw [val_main_v40_apply, val_main_v38_apply, val_main_v37_apply, val_main_v39_apply, v36_word, v15_read, v35_read]
  rfl

/-- The reference's result array is G of its eleven arguments. -/
theorem ref_is_G (x0 x1 : ABH) (x2 x3 x4 x5 x6 x7 : AHH) (x8 x9 x10 : AH) :
    val_main_v40 (F := Ideal) x0 x1 x2 x3 x4 x5 x6 x7 x8 x9 x10 = GruSpec.G x0 x1 x2 x3 x4 x5 x6 x7 x8 x9 x10 := by
  funext i
  obtain ⟨p, e, rfl⟩ : ∃ (p : Fin 8192) (e : Fin 2048), i = ix2 p e := ⟨i 0, i 1, eq_ix2 (n0 := 8192) (n1 := 2048) i⟩
  exact (v40_read x0 x1 x2 x3 x4 x5 x6 x7 x8 x9 x10 p e).trans (GruSpec.G_apply x0 x1 x2 x3 x4 x5 x6 x7 x8 x9 x10 p e).symm

end Cert.RefValue

end
-- ==== Proof.lean ====
/-
  The fused GRU cell kernel against its plain reference.

  The kernel walks 32 batch tiles of 256 rows; for each it takes six steps, one per weight matrix of the stack
  [W_z, U_z, W_r, U_r, W_h, U_h]: x·W_z into an accumulator, then the update gate z = σ(x·W_z + h·U_z + b_z) in its place;
  likewise the reset gate r; then x·W_h; and at the last step the candidate tanh(x·W_h + (r∘h)·U_h + b_h) and the blend
  (1 − z)∘h + z∘candidate, stored into the result block, which is written back there.  The reference computes the same
  cell with the three input projections batched into one product against the column-joined weights (and the two
  ungated state projections likewise), sliced apart afterwards, and the sigmoid spelt 1/(1+e^(−y)).

  On the extended reals a change of float format is the identity and every product is the plain sum over the contracted
  coordinate, so both programs compute, entry by entry, one function of the eleven arguments (`GruSpec.G`): a column
  slice of a product against column-joined matrices is the product against the one matrix, and the spelt sigmoid is the
  logistic function by definition.  No law of arithmetic beyond that is used and the precondition is never opened.

  The frames: each kernel program (at the word level and idealized) runs through its pipeline — at every grid point the
  body takes exactly the branch of the point's step, the three accumulators holding what the tile's later steps read —
  and leaves its arguments unchanged; the reference's frame is its run with the result dropped.  The idealization
  rewrote nothing, so `preserves` is trivial.
-/
import proofs.«173219_j59227599012282_2_alg».proof.Defs
import proofs.«173219_j59227599012282_2_alg».proof.Proof.Gen.Kernel
import proofs.«173219_j59227599012282_2_alg».proof.Proof.Gen.KernelIdeal
import proofs.«173219_j59227599012282_2_alg».proof.Proof.Gen.ReferenceIdeal
import proofs.«173219_j59227599012282_2_alg».proof.Proof.Gen.Pre_finite_inputs
import proofs.«173219_j59227599012282_2_alg».proof.Proof.Gen.ReferenceIdeal.Run
import proofs.«173219_j59227599012282_2_alg».proof.Proof.Gen.ReferenceIdeal.Read
import proofs.«173219_j59227599012282_2_alg».proof.Proof.K.Frame
import proofs.«173219_j59227599012282_2_alg».proof.Proof.KI.Value
import proofs.«173219_j59227599012282_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the GRU cell of the (agreeing) arguments. -/
theorem algebraic : Cert.algebraic_KernelIdeal_ReferenceIdeal := by
  intro m ρ m' ρ' _ hagree
  refine ⟨fun c => Cert.GruSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v40_eq, Cert.RefValue.ref_is_G, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
